-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S65536x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S65536x1024 : Shape := ⟨2, ![65536, 1024]⟩
abbrev S1024x1024 : Shape := ⟨2, ![1024, 1024]⟩
abbrev S64x16x1024 : Shape := ⟨3, ![64, 16, 1024]⟩
abbrev S16x64x1024 : Shape := ⟨3, ![16, 64, 1024]⟩
abbrev S1024x64x16 : Shape := ⟨3, ![1024, 64, 16]⟩
abbrev S1024x16x64 : Shape := ⟨3, ![1024, 16, 64]⟩
abbrev S256x1024 : Shape := ⟨2, ![256, 1024]⟩
abbrev S256x16x64 : Shape := ⟨3, ![256, 16, 64]⟩
abbrev S256x1x64 : Shape := ⟨3, ![256, 1, 64]⟩
abbrev S256x16 : Shape := ⟨2, ![256, 16]⟩
abbrev S256x16x1 : Shape := ⟨3, ![256, 16, 1]⟩
abbrev S256x16x16 : Shape := ⟨3, ![256, 16, 16]⟩

abbrev nBuf : Space → Nat
  | .hbm => 19
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S64x16x1024, .f32⟩
  | .hbm, ⟨6, _⟩ => ⟨S16x64x1024, .f32⟩
  | .hbm, ⟨7, _⟩ => ⟨S1024x1024, .f32⟩
  | .hbm, ⟨8, _⟩ => ⟨S64x16x1024, .f32⟩
  | .hbm, ⟨9, _⟩ => ⟨S16x64x1024, .f32⟩
  | .hbm, ⟨10, _⟩ => ⟨S1024x1024, .f32⟩
  | .hbm, ⟨11, _⟩ => ⟨S1024x64x16, .f32⟩
  | .hbm, ⟨12, _⟩ => ⟨S1024x16x64, .f32⟩
  | .hbm, ⟨13, _⟩ => ⟨S1024x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024x1024_S64x16x1024 : S1024x1024.ShapeCasts S64x16x1024
  transposes_S64x16x1024_S16x64x1024_1_0_2 : S64x16x1024.Transposes [1, 0, 2] S16x64x1024
  shapeCasts_S16x64x1024_S1024x1024 : S16x64x1024.ShapeCasts S1024x1024
  shapeCasts_S1024x1024_S1024x64x16 : S1024x1024.ShapeCasts S1024x64x16
  transposes_S1024x64x16_S1024x16x64_0_2_1 : S1024x64x16.Transposes [0, 2, 1] S1024x16x64
  shapeCasts_S1024x16x64_S1024x1024 : S1024x16x64.ShapeCasts S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x16x64 : S256x1024.ShapeCasts S256x16x64
  slices_S256x16x64_o0_0_0_S256x1x64 : S256x16x64.Slices ![0, 0, 0] S256x1x64
  broadcasts_S256x1x64_S256x16x64 : S256x1x64.Broadcasts S256x16x64
  reduces_S256x16x64_S256x16 : S256x16x64.Reduces [2] S256x16
  slices_S256x16x64_o0_1_0_S256x1x64 : S256x16x64.Slices ![0, 1, 0] S256x1x64
  slices_S256x16x64_o0_2_0_S256x1x64 : S256x16x64.Slices ![0, 2, 0] S256x1x64
  slices_S256x16x64_o0_3_0_S256x1x64 : S256x16x64.Slices ![0, 3, 0] S256x1x64
  slices_S256x16x64_o0_4_0_S256x1x64 : S256x16x64.Slices ![0, 4, 0] S256x1x64
  slices_S256x16x64_o0_5_0_S256x1x64 : S256x16x64.Slices ![0, 5, 0] S256x1x64
  slices_S256x16x64_o0_6_0_S256x1x64 : S256x16x64.Slices ![0, 6, 0] S256x1x64
  slices_S256x16x64_o0_7_0_S256x1x64 : S256x16x64.Slices ![0, 7, 0] S256x1x64
  slices_S256x16x64_o0_8_0_S256x1x64 : S256x16x64.Slices ![0, 8, 0] S256x1x64
  slices_S256x16x64_o0_9_0_S256x1x64 : S256x16x64.Slices ![0, 9, 0] S256x1x64
  slices_S256x16x64_o0_10_0_S256x1x64 : S256x16x64.Slices ![0, 10, 0] S256x1x64
  slices_S256x16x64_o0_11_0_S256x1x64 : S256x16x64.Slices ![0, 11, 0] S256x1x64
  slices_S256x16x64_o0_12_0_S256x1x64 : S256x16x64.Slices ![0, 12, 0] S256x1x64
  slices_S256x16x64_o0_13_0_S256x1x64 : S256x16x64.Slices ![0, 13, 0] S256x1x64
  slices_S256x16x64_o0_14_0_S256x1x64 : S256x16x64.Slices ![0, 14, 0] S256x1x64
  slices_S256x16x64_o0_15_0_S256x1x64 : S256x16x64.Slices ![0, 15, 0] S256x1x64
  shapeCasts_S256x16_S256x16x1 : S256x16.ShapeCasts S256x16x1
  concatenates_S256x16x1_S256x16x1_S256x16x1_S256x16x1_S256x16x1_S256x16x1_S256x16x1_S256x16x1_S256x16x1_S256x16x1_S256x16x1_S256x16x1_S256x16x1_S256x16x1_S256x16x1_S256x16x1_S256x16x16_d2 : Shape.Concatenates [S256x16x1, S256x16x1, S256x16x1, S256x16x1, S256x16x1, S256x16x1, S256x16x1, S256x16x1, S256x16x1, S256x16x1, S256x16x1, S256x16x1, S256x16x1, S256x16x1, S256x16x1, S256x16x1] S256x16x16 2
  reduces_S256x16x16_S256x16 : S256x16x16.Reduces [2] S256x16
  broadcasts_S256x16x1_S256x16x16 : S256x16x1.Broadcasts S256x16x16
  slices_S256x16x16_o0_0_0_S256x16x1 : S256x16x16.Slices ![0, 0, 0] S256x16x1
  broadcasts_S256x16x1_S256x16x64 : S256x16x1.Broadcasts S256x16x64
  slices_S256x16x16_o0_0_1_S256x16x1 : S256x16x16.Slices ![0, 0, 1] S256x16x1
  slices_S256x16x16_o0_0_2_S256x16x1 : S256x16x16.Slices ![0, 0, 2] S256x16x1
  slices_S256x16x16_o0_0_3_S256x16x1 : S256x16x16.Slices ![0, 0, 3] S256x16x1
  slices_S256x16x16_o0_0_4_S256x16x1 : S256x16x16.Slices ![0, 0, 4] S256x16x1
  slices_S256x16x16_o0_0_5_S256x16x1 : S256x16x16.Slices ![0, 0, 5] S256x16x1
  slices_S256x16x16_o0_0_6_S256x16x1 : S256x16x16.Slices ![0, 0, 6] S256x16x1
  slices_S256x16x16_o0_0_7_S256x16x1 : S256x16x16.Slices ![0, 0, 7] S256x16x1
  slices_S256x16x16_o0_0_8_S256x16x1 : S256x16x16.Slices ![0, 0, 8] S256x16x1
  slices_S256x16x16_o0_0_9_S256x16x1 : S256x16x16.Slices ![0, 0, 9] S256x16x1
  slices_S256x16x16_o0_0_10_S256x16x1 : S256x16x16.Slices ![0, 0, 10] S256x16x1
  slices_S256x16x16_o0_0_11_S256x16x1 : S256x16x16.Slices ![0, 0, 11] S256x16x1
  slices_S256x16x16_o0_0_12_S256x16x1 : S256x16x16.Slices ![0, 0, 12] S256x16x1
  slices_S256x16x16_o0_0_13_S256x16x1 : S256x16x16.Slices ![0, 0, 13] S256x16x1
  slices_S256x16x16_o0_0_14_S256x16x1 : S256x16x16.Slices ![0, 0, 14] S256x16x1
  slices_S256x16x16_o0_0_15_S256x16x1 : S256x16x16.Slices ![0, 0, 15] S256x16x1
  shapeCasts_S256x16x64_S256x1024 : S256x16x64.ShapeCasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S65536x1024.size a
  hwx0_0 : ∀ i : grid0.Coords, EltTy.bits .f32 = 32 ∨ (Rect.block (s := S65536x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S65536x1024.size a
  hwx0_5 : ∀ i : grid0.Coords, EltTy.bits .f32 = 32 ∨ (Rect.block (s := S65536x1024) S256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S65536x16x64 : Shape := ⟨3, ![65536, 16, 64]⟩
abbrev S65536x64x16 : Shape := ⟨3, ![65536, 64, 16]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S65536x1024, .f32⟩
  | .hbm, ⟨7, _⟩ => ⟨S65536x16x64, .f32⟩
  | .hbm, ⟨8, _⟩ => ⟨S1024x1024, .f32⟩
  | .hbm, ⟨9, _⟩ => ⟨S65536x1024, .f32⟩
  | .hbm, ⟨10, _⟩ => ⟨S65536x64x16, .f32⟩
  | .hbm, ⟨11, _⟩ => ⟨S1024x1024, .f32⟩
  | .hbm, ⟨12, _⟩ => ⟨S65536x1024, .f32⟩
  | .hbm, ⟨13, _⟩ => ⟨S65536x64x16, .f32⟩
  | .hbm, ⟨14, _⟩ => ⟨S65536x16x16, .f32⟩
  | .hbm, ⟨15, _⟩ => ⟨S_, .f32⟩
  | .hbm, ⟨16, _⟩ => ⟨S65536x16x16, .f32⟩
  | .hbm, ⟨17, _⟩ => ⟨S65536x16x16, .f32⟩
  | .hbm, ⟨18, _⟩ => ⟨S_, .f32⟩
  | .hbm, ⟨19, _⟩ => ⟨S65536x16x16, .f32⟩
  | .hbm, ⟨20, _⟩ => ⟨S65536x16x16, .f32⟩
  | .hbm, ⟨21, _⟩ => ⟨S_, .f32⟩
  | .hbm, ⟨22, _⟩ => ⟨S65536x16, .f32⟩
  | .hbm, ⟨23, _⟩ => ⟨S_, .f32⟩
  | .hbm, ⟨24, _⟩ => ⟨S65536x16, .f32⟩
  | .hbm, ⟨25, _⟩ => ⟨S65536x16, .f32⟩
  | .hbm, ⟨26, _⟩ => ⟨S65536x16x1, .f32⟩
  | .hbm, ⟨27, _⟩ => ⟨S65536x16x16, .f32⟩
  | .hbm, ⟨28, _⟩ => ⟨S65536x16x16, .f32⟩
  | .hbm, ⟨29, _⟩ => ⟨S65536x16x16, .f32⟩
  | .hbm, ⟨30, _⟩ => ⟨S_, .f32⟩
  | .hbm, ⟨31, _⟩ => ⟨S65536x16, .f32⟩
  | .hbm, ⟨32, _⟩ => ⟨S65536x16x1, .f32⟩
  | .hbm, ⟨33, _⟩ => ⟨S65536x16x16, .f32⟩
  | .hbm, ⟨34, _⟩ => ⟨S65536x16x16, .f32⟩
  | .hbm, ⟨35, _⟩ => ⟨S65536x16x64, .f32⟩
  | .hbm, ⟨36, _⟩ => ⟨S65536x64x16, .f32⟩
  | .hbm, ⟨37, _⟩ => ⟨S65536x1024, .f32⟩
  | .hbm, ⟨38, _⟩ => ⟨S1024x1024, .f32⟩
  | .hbm, ⟨39, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  transposes_S1024x1024_S1024x1024_1_0 : S1024x1024.Transposes [1, 0] S1024x1024
  shapeCasts_S65536x1024_S65536x16x64 : S65536x1024.ShapeCasts S65536x16x64
  shapeCasts_S65536x1024_S65536x64x16 : S65536x1024.ShapeCasts S65536x64x16
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  transposes_S65536x16x64_S65536x64x16_0_2_1 : S65536x16x64.Transposes [0, 2, 1] S65536x64x16
  shapeCasts_S65536x64x16_S65536x1024 : S65536x64x16.ShapeCasts S65536x1024
  dot_S65536x1024_S1024x1024_S65536x1024_1_0_0_1_n_n_wf : DotDims.WF S65536x1024 S1024x1024 S65536x1024 [1] [0] [0] [1] [] []
  dot_S65536x16x64_S65536x64x16_S65536x16x16_2_1_1_2_0_0_wf : DotDims.WF S65536x16x64 S65536x64x16 S65536x16x16 [2] [1] [1] [2] [0] [0]
  dot_S65536x16x16_S65536x64x16_S65536x16x64_2_2_1_1_0_0_wf : DotDims.WF S65536x16x16 S65536x64x16 S65536x16x64 [2] [2] [1] [1] [0] [0]

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x16x64_S65536x64x16_S65536x16x16_2_1_1_2_0_0 : DotDims S65536x16x64 S65536x64x16 S65536x16x16 where
  lhsContracting := [2]
  rhsContracting := [1]
  lhsNonContracting := [1]
  rhsNonContracting := [2]
  lhsBatch := [0]
  rhsBatch := [0]
  wf := dot_S65536x16x64_S65536x64x16_S65536x16x16_2_1_1_2_0_0_wf
def dot_S65536x16x16_S65536x64x16_S65536x16x64_2_2_1_1_0_0 : DotDims S65536x16x16 S65536x64x16 S65536x16x64 where
  lhsContracting := [2]
  rhsContracting := [2]
  lhsNonContracting := [1]
  rhsNonContracting := [1]
  lhsBatch := [0]
  rhsBatch := [0]
  wf := dot_S65536x16x16_S65536x64x16_S65536x16x64_2_2_1_1_0_0_wf

class Facts : Prop extends Facts₀ where

variable [Facts]
-- ==== Proof.Spec.lean ====
/-
  One row of multi-head attention over the extended reals, as a function of the row's projected queries, keys and
  values, and the laws that let two different arrangements of the same sums meet it.

  A row of 1024 features is read as 16 heads of 64 dimensions in two ways: head-major (feature h·64 + d) and
  dimension-major (feature d·16 + g).  For a row with per-head queries q, keys k and values v the row's result is
    attn l d = Σ_g soft (fun g' => (Σ_e q l e · k g' e) · 2⁻⁷) g · v g d,
  where soft is the softmax of a 16-vector written through its running maximum, and the output feature is
    Σ_l Σ_d attn l d · w l d.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Attn

open Idealize.ShloMosaic Idealize.ShloMosaic.ValueIdx

/-- Feature number of (head h, dimension d) in the head-major reading: h·64 + d. -/
def hd (h : Fin 16) (d : Fin 64) : Fin 1024 := ⟨h.val * 64 + d.val, by omega⟩
/-- Feature number of (dimension d, head g) in the dimension-major reading: d·16 + g. -/
def dh (d : Fin 64) (g : Fin 16) : Fin 1024 := ⟨d.val * 16 + g.val, by omega⟩

@[simp] theorem hd_val (h : Fin 16) (d : Fin 64) : (hd h d).val = h.val * 64 + d.val := rfl
@[simp] theorem dh_val (d : Fin 64) (g : Fin 16) : (dh d g).val = d.val * 16 + g.val := rfl

/-- The value the softmax's running maximum starts from: minus infinity, kept as its pattern. -/
def negInf : EReal := Ideal.ofBits .f32 0xFF800000#32
/-- The logits' scale 2⁻⁷ = 1/128 = 0.5 / 64, kept as its pattern. -/
def scale : EReal := Ideal.ofBits .f32 0x3C000000#32

/-- The maximum of a 16-vector, folded from minus infinity. -/
def top (s : Fin 16 → EReal) : EReal := (Finset.univ : Finset (Fin 16)).fold max negInf s

/-- Softmax of a 16-vector through its maximum: exp (s g − top s) over the sum of those exponentials. -/
def soft (s : Fin 16 → EReal) (g : Fin 16) : EReal :=
  Ideal.div (Ideal.exp (s g - top s)) (∑ g' : Fin 16, Ideal.exp (s g' - top s))

/-- Head l's attended value at dimension d: the softmax over the heads g of the scaled products q_l · k_g, applied to v. -/
def attn (q k v : Fin 16 → Fin 64 → EReal) (l : Fin 16) (d : Fin 64) : EReal :=
  ∑ g : Fin 16, soft (fun g' => (∑ e : Fin 64, q l e * k g' e) * scale) g * v g d

/-- One output feature: the attended values against one row of the output weight, summed over heads and dimensions. -/
def out (q k v w : Fin 16 → Fin 64 → EReal) : EReal :=
  ∑ l : Fin 16, ∑ d : Fin 64, attn q k v l d * w l d

/-- The whole result at row n and output feature o, from the argument arrays: queries head-major in Wq's rows, keys
    and values dimension-major in Wk's and Wv's rows, the output weight's row o read dimension-major. -/
def G (H : (⟨2, ![65536, 1024]⟩ : Shape).Idx → EReal) (Wq Wk Wv Wf : (⟨2, ![1024, 1024]⟩ : Shape).Idx → EReal)
    (n : Fin 65536) (o : Fin 1024) : EReal :=
  out (fun h d => ∑ c : Fin 1024, H (ix2 n c) * Wq (ix2 (hd h d) c))
      (fun g d => ∑ c : Fin 1024, H (ix2 n c) * Wk (ix2 (dh d g) c))
      (fun g d => ∑ c : Fin 1024, H (ix2 n c) * Wv (ix2 (dh d g) c))
      (fun l d => Wf (ix2 o (dh d l)))

/-! ## Sums over the 1024 features as double sums over heads and dimensions -/

/-- A sum over the features, taken head-major. -/
theorem sum_hd {M : Type*} [AddCommMonoid M] (f : Fin 1024 → M) :
    ∑ j : Fin 1024, f j = ∑ l : Fin 16, ∑ d : Fin 64, f (hd l d) := by
  rw [← Fintype.sum_prod_type' (f := fun (l : Fin 16) (d : Fin 64) => f (hd l d))]
  refine ((Equiv.sum_comp (finProdFinEquiv (m := 16) (n := 64)) f).symm).trans ?_
  refine Finset.sum_congr rfl fun x _ => congrArg f (Fin.ext ?_)
  show x.2.val + 64 * x.1.val = x.1.val * 64 + x.2.val
  omega

/-- A sum over the features, taken dimension-major. -/
theorem sum_dh {M : Type*} [AddCommMonoid M] (f : Fin 1024 → M) :
    ∑ j : Fin 1024, f j = ∑ l : Fin 16, ∑ d : Fin 64, f (dh d l) := by
  rw [Finset.sum_comm, ← Fintype.sum_prod_type' (f := fun (d : Fin 64) (l : Fin 16) => f (dh d l))]
  refine ((Equiv.sum_comp (finProdFinEquiv (m := 64) (n := 16)) f).symm).trans ?_
  refine Finset.sum_congr rfl fun x _ => congrArg f (Fin.ext ?_)
  show x.2.val + 16 * x.1.val = x.1.val * 16 + x.2.val
  omega

/-- Sixteen terms added one after the other onto zero are their sum. -/
theorem sum16 {M : Type*} [AddCommMonoid M] (a : Fin 16 → M) :
    (((((((((((((((((0 : M) + a 0) + a 1) + a 2) + a 3) + a 4) + a 5) + a 6) + a 7) + a 8) + a 9) + a 10) + a 11) + a 12)
      + a 13) + a 14) + a 15) = ∑ g : Fin 16, a g := by
  simp only [Fin.sum_univ_castSucc, Fin.sum_univ_zero]
  rfl

/-! ## The constants -/

theorem ofBits_64 : Ideal.ofBits .f32 0x42800000#32 = ((64 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem scale_eq : scale = ((1 / 128 : ℝ) : EReal) := by
  unfold scale; simp [Ideal.ofBits, Ideal.ieee, -EReal.coe_mul]; norm_num

/-- Dividing by 64 and then halving is one product with 2⁻⁷, at the infinities too. -/
theorem scale_ref (x : EReal) :
    Ideal.div x (Ideal.ofBits .f32 0x42800000#32) * Ideal.ofBits .f32 0x3F000000#32 = x * scale := by
  rw [ofBits_64, ofBits_half, scale_eq, Ideal.div_coe (by norm_num : (64 : ℝ) ≠ 0), mul_assoc, ← EReal.coe_mul]
  norm_num

/-- A maximum folded from minus infinity is not changed by one more maximum with minus infinity. -/
theorem top_absorb (s : Fin 16 → EReal) : max negInf (top s) = top s :=
  max_eq_right ((Finset.le_fold_max _).2 (Or.inl le_rfl))

end Cert.Attn

end
-- ==== Proof.KScores.lean ====
/-
  The kernel body's first half read at an index: the three projections of a block's row (queries, keys, values as
  16 heads of 64 dimensions, head-major) and the softmax scores over the heads.
-/
import proofs.«167162_j25314537242916_2_alg».proof.Proof.Gen.KernelIdeal.Skeleton
import proofs.«167162_j25314537242916_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Attn

/-! ## The projections -/

/-- The left operand's row coordinate is the result's. -/
theorem lhs_row (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- The left operand's column coordinate is the contraction position. -/
theorem lhs_col (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- The right operand's row coordinate is the result's column. -/
theorem rhs_row (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- The right operand's column coordinate is the contraction position. -/
theorem rhs_col (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- A block against a weight, both contracted along their second axis, into zero: at (p, c) the sum over the
    features k of the block's row p times the weight's row c. -/
theorem mm_apply (X : FVec Ideal S256x1024 .bf16) (W : FVec Ideal S1024x1024 .bf16) (p : Fin 256) (c : Fin 1024) :
    (matmul dot_S256x1024_S1024x1024_S256x1024_1_1_0_0_n_n none X W (constant (F := Ideal) S256x1024 .f32 0x00000000#32) : FVec Ideal S256x1024 .f32) (ix2 p c)
      = ∑ k : Fin 1024, X (ix2 p k) * W (ix2 c k) := by
  refine (Ideal.matmul_constant_zero_apply dot_S256x1024_S1024x1024_S256x1024_1_1_0_0_n_n none X W (ix2 p c)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p c) ((contrEquiv1 dot_S256x1024_S1024x1024_S256x1024_1_1_0_0_n_n 1024 rfl rfl).symm k) = ix2 p k := funext fun a => Fin.ext (by
    match a with
    | ⟨0, _⟩ => exact lhs_row _ _
    | ⟨1, _⟩ => exact (lhs_col _ _).trans hk)
  have er : dot_S256x1024_S1024x1024_S256x1024_1_1_0_0_n_n.rhsIdx (ix2 p c) ((contrEquiv1 dot_S256x1024_S1024x1024_S256x1024_1_1_0_0_n_n 1024 rfl rfl).symm k) = ix2 c k := funext fun a => Fin.ext (by
    match a with
    | ⟨0, _⟩ => exact rhs_row _ _
    | ⟨1, _⟩ => exact (rhs_col _ _).trans hk)
  rw [el, er]

/-- A 256x1024 product seen as 16 heads of 64 dimensions, head-major, through its two format changes: at
    (p, h, d) it is the product at (p, h·64+d). -/
theorem heads_apply (M : FVec Ideal S256x1024 .f32) (p : Fin 256) (h : Fin 16) (d : Fin 64) :
    (extf .f32 (shapeCast S256x16x64 (truncf .bf16 M bitsLt_bf16_f32) shapeCasts_S256x1024_S256x16x64) bitsLt_bf16_f32
      : FVec Ideal S256x16x64 .f32) (ix3 p h d) = M (ix2 p (hd h d)) := by
  rw [extf_apply]
  refine (shapeCast_apply _ shapeCasts_S256x1024_S256x16x64 (ix3 p h d) (ix2 p (hd h d)) ?_).trans rfl
  rw [Shape.rowMajor_val_two, Shape.rowMajor_val_three]
  show p.val * 1024 + (h.val * 64 + d.val) = (p.val * 16 + h.val) * 64 + d.val
  omega

/-- The query projection of row p at (head h, dimension d): the row against row h·64+d of the first weight block. -/
theorem q_apply (x0 : Vec Ideal S256x1024 .f32) (w : Vec Ideal S1024x1024 .bf16) (p : Fin 256) (h : Fin 16) (d : Fin 64) :
    k0_pay4 x0 w (ix3 p h d) = ∑ c : Fin 1024, x0 (ix2 p c) * w (ix2 (hd h d) c) := by
  unfold k0_pay4 k0_pay2
  rw [shapeCast_self]
  refine (heads_apply _ p h d).trans ?_
  exact mm_apply _ _ p (hd h d)

/-! ## The logit columns -/

/-- The source index of a reduction over the last axis of a 256x16x64 block. -/
theorem lift64 (h : S256x16x64.Reduces [2] S256x16) (p : Fin 256) (l : Fin 16) (e : Fin 64) :
    h.lift (ix2 p l) e = ix3 p l e := by
  funext a
  match a with
  | ⟨0, _⟩ => exact Fin.ext rfl
  | ⟨1, _⟩ => exact Fin.ext rfl
  | ⟨2, _⟩ => exact Fin.ext rfl

/-- The source index of a reduction over the last axis of a 256x16x16 block. -/
theorem lift16 (h : S256x16x16.Reduces [2] S256x16) (p : Fin 256) (l : Fin 16) (g : Fin 16) :
    h.lift (ix2 p l) g = ix3 p l g := by
  funext a
  match a with
  | ⟨0, _⟩ => exact Fin.ext rfl
  | ⟨1, _⟩ => exact Fin.ext rfl
  | ⟨2, _⟩ => exact Fin.ext rfl

/-- A sum over the last axis of a 256x16x64 block, from zero. -/
theorem sum64_apply (V : FVec Ideal S256x16x64 .f32) (p : Fin 256) (l : Fin 16) :
    (multiReduction .add [2] S256x16 V 0x00000000#32 reduces_S256x16x64_S256x16 (.inl rfl) rfl : FVec Ideal S256x16 .f32) (ix2 p l)
      = ∑ e : Fin 64, V (ix3 p l e) := by
  refine (Ideal.multiReduction_add_single V 0x00000000#32 reduces_S256x16x64_S256x16 (.inl rfl) rfl (ix2 p l)).trans ?_
  exact Finset.sum_congr rfl fun e _ => congrArg V (lift64 _ p l e)

/-- Head n's key, taken out of the keys and spread over the heads, times the queries: at (p, l, e) the product of
    head l's query and head n's key at dimension e. -/
theorem prod_apply (Q K : FVec Ideal S256x16x64 .f32) (n : Nat) (hn : n < 16) (hs : S256x16x64.Slices ![0, n, 0] S256x1x64)
    (p : Fin 256) (l : Fin 16) (e : Fin 64) :
    (mulf Q (broadcastTo S256x16x64 (extractStridedSlice S256x1x64 ![0, n, 0] K hs) broadcasts_S256x1x64_S256x16x64)
      : FVec Ideal S256x16x64 .f32) (ix3 p l e) = Q (ix3 p l e) * K (ix3 p ⟨n, hn⟩ e) := by
  rw [mulf_apply]
  refine congrArg (Q (ix3 p l e) * ·) ?_
  refine (broadcastTo_apply _ broadcasts_S256x1x64_S256x16x64 (ix3 p l e) (ix3 p (0 : Fin 1) e) ?_).trans ?_
  · intro a
    match a with
    | ⟨0, _⟩ => rfl
    | ⟨1, _⟩ => rfl
    | ⟨2, _⟩ => rfl
  · refine extractStridedSlice_apply _ K hs (ix3 p (0 : Fin 1) e) (ix3 p ⟨n, hn⟩ e) fun a => ?_
    match a with
    | ⟨0, _⟩ => show p.val = 0 + p.val; omega
    | ⟨1, _⟩ => show n = n + 0; omega
    | ⟨2, _⟩ => show e.val = 0 + e.val; omega

/-- The logit column of head n: at (p, l) the product of head l's query with head n's key. -/
theorem col_apply (Q K : FVec Ideal S256x16x64 .f32) (n : Nat) (hn : n < 16) (hs : S256x16x64.Slices ![0, n, 0] S256x1x64)
    (p : Fin 256) (l : Fin 16) :
    (multiReduction .add [2] S256x16
      (mulf Q (broadcastTo S256x16x64 (extractStridedSlice S256x1x64 ![0, n, 0] K hs) broadcasts_S256x1x64_S256x16x64))
      0x00000000#32 reduces_S256x16x64_S256x16 (.inl rfl) rfl : FVec Ideal S256x16 .f32) (ix2 p l)
      = ∑ e : Fin 64, Q (ix3 p l e) * K (ix3 p ⟨n, hn⟩ e) := by
  refine (sum64_apply _ p l).trans ?_
  exact Finset.sum_congr rfl fun e _ => prod_apply Q K n hn hs p l e

/-- A 256x16 column seen as 256x16x1. -/
theorem unit_apply (C : FVec Ideal S256x16 .f32) (p : Fin 256) (l : Fin 16) (z : Fin 1) :
    (shapeCast S256x16x1 C shapeCasts_S256x16_S256x16x1 : FVec Ideal S256x16x1 .f32) (ix3 p l z) = C (ix2 p l) := by
  refine shapeCast_apply C shapeCasts_S256x16_S256x16x1 (ix3 p l z) (ix2 p l) ?_
  rw [Shape.rowMajor_val_two, Shape.rowMajor_val_three]
  show p.val * 16 + l.val = (p.val * 16 + l.val) * 1 + z.val
  omega

/-! ## The softmax over the heads -/

/-- A sum over the last axis of a 256x16x16 block, from zero. -/
theorem sum16_apply (V : FVec Ideal S256x16x16 .f32) (p : Fin 256) (l : Fin 16) :
    (multiReduction .add [2] S256x16 V 0x00000000#32 reduces_S256x16x16_S256x16 (.inl rfl) rfl : FVec Ideal S256x16 .f32) (ix2 p l)
      = ∑ g : Fin 16, V (ix3 p l g) := by
  refine (Ideal.multiReduction_add_single V 0x00000000#32 reduces_S256x16x16_S256x16 (.inl rfl) rfl (ix2 p l)).trans ?_
  exact Finset.sum_congr rfl fun g _ => congrArg V (lift16 _ p l g)

/-- A maximum over the last axis of a 256x16x16 block, from minus infinity. -/
theorem max16_apply (V : FVec Ideal S256x16x16 .f32) (p : Fin 256) (l : Fin 16) :
    (multiReduction .maximumf [2] S256x16 V 0xFF800000#32 reduces_S256x16x16_S256x16 (.inl rfl) rfl : FVec Ideal S256x16 .f32) (ix2 p l)
      = top fun g => V (ix3 p l g) := by
  refine (Ideal.multiReduction_maximumf_single V 0xFF800000#32 reduces_S256x16x16_S256x16 (.inl rfl) rfl (ix2 p l)).trans ?_
  have e : V ∘ reduces_S256x16x16_S256x16.lift (ix2 p l) = fun g : Fin 16 => V (ix3 p l g) :=
    funext fun g => congrArg V (lift16 _ p l g)
  rw [e]
  rfl

/-- A 256x16 column spread back over the last axis of a 256x16x16 block. -/
theorem spread_apply (C : FVec Ideal S256x16 .f32) (p : Fin 256) (l g : Fin 16) :
    (broadcastTo S256x16x16 (shapeCast S256x16x1 C shapeCasts_S256x16_S256x16x1) broadcasts_S256x16x1_S256x16x16
      : FVec Ideal S256x16x16 .f32) (ix3 p l g) = C (ix2 p l) := by
  refine (broadcastTo_apply _ broadcasts_S256x16x1_S256x16x16 (ix3 p l g) (ix3 p l (0 : Fin 1)) ?_).trans (unit_apply C p l 0)
  intro a
  match a with
  | ⟨0, _⟩ => rfl
  | ⟨1, _⟩ => rfl
  | ⟨2, _⟩ => rfl

/-- The logits scaled by 2⁻⁷. -/
def scaled (L : FVec Ideal S256x16x16 .f32) : FVec Ideal S256x16x16 .f32 :=
  mulf L (broadcast S256x16x16 (Scalar.ofBits .f32 0x3C000000#32))

/-- The exponentials of a block less its maximum over the last axis. -/
def expd (S : FVec Ideal S256x16x16 .f32) : FVec Ideal S256x16x16 .f32 :=
  exp (subf S (broadcastTo S256x16x16 (shapeCast S256x16x1
    (multiReduction .maximumf [2] S256x16 S 0xFF800000#32 reduces_S256x16x16_S256x16 (.inl rfl) rfl)
    shapeCasts_S256x16_S256x16x1) broadcasts_S256x16x1_S256x16x16))

/-- A block over its sum along the last axis. -/
def normd (E : FVec Ideal S256x16x16 .f32) : FVec Ideal S256x16x16 .f32 :=
  divf E (broadcastTo S256x16x16 (shapeCast S256x16x1
    (multiReduction .add [2] S256x16 E 0x00000000#32 reduces_S256x16x16_S256x16 (.inl rfl) rfl)
    shapeCasts_S256x16_S256x16x1) broadcasts_S256x16x1_S256x16x16)

theorem scaled_apply (L : FVec Ideal S256x16x16 .f32) (p : Fin 256) (l g : Fin 16) :
    scaled L (ix3 p l g) = L (ix3 p l g) * scale := rfl

theorem expd_apply (S : FVec Ideal S256x16x16 .f32) (p : Fin 256) (l g : Fin 16) :
    expd S (ix3 p l g) = Ideal.exp (S (ix3 p l g) - top fun g' => S (ix3 p l g')) := by
  show Ideal.exp (S (ix3 p l g) - _) = _
  rw [spread_apply, max16_apply]

theorem normd_apply (E : FVec Ideal S256x16x16 .f32) (p : Fin 256) (l g : Fin 16) :
    normd E (ix3 p l g) = Ideal.div (E (ix3 p l g)) (∑ g' : Fin 16, E (ix3 p l g')) := by
  show Ideal.div (E (ix3 p l g)) _ = _
  rw [spread_apply, sum16_apply]

/-- The three steps together are the softmax of the scaled logits. -/
theorem softmax_apply (L : FVec Ideal S256x16x16 .f32) (p : Fin 256) (l g : Fin 16) :
    normd (expd (scaled L)) (ix3 p l g) = soft (fun g' => L (ix3 p l g') * scale) g := by
  rw [normd_apply]
  unfold soft
  have hE : ∀ g' : Fin 16, expd (scaled L) (ix3 p l g')
      = Ideal.exp ((fun g' => L (ix3 p l g') * scale) g' - top fun g' => L (ix3 p l g') * scale) :=
    fun g' => expd_apply (scaled L) p l g'
  rw [hE g, Finset.sum_congr rfl fun g' _ => hE g']

/-! ## The sixteen columns side by side -/

/-- Head n's logit column as a 256x16x1 block. -/
def column (Q K : FVec Ideal S256x16x64 .f32) (n : Nat) (hs : S256x16x64.Slices ![0, n, 0] S256x1x64) : FVec Ideal S256x16x1 .f32 :=
  shapeCast S256x16x1
    (multiReduction .add [2] S256x16
      (mulf Q (broadcastTo S256x16x64 (extractStridedSlice S256x1x64 ![0, n, 0] K hs) broadcasts_S256x1x64_S256x16x64))
      0x00000000#32 reduces_S256x16x64_S256x16 (.inl rfl) rfl)
    shapeCasts_S256x16_S256x16x1

theorem column_apply (Q K : FVec Ideal S256x16x64 .f32) (n : Nat) (hn : n < 16) (hs : S256x16x64.Slices ![0, n, 0] S256x1x64)
    (p : Fin 256) (l : Fin 16) (z : Fin 1) :
    column Q K n hs (ix3 p l z) = ∑ e : Fin 64, Q (ix3 p l e) * K (ix3 p ⟨n, hn⟩ e) :=
  (unit_apply _ p l z).trans (col_apply Q K n hn hs p l)

/-- The sixteen columns, in the order of the heads. -/
def pieces (Q K : FVec Ideal S256x16x64 .f32) : List ((s : Shape) × (s.Idx → Ideal .f32)) :=
  [ ⟨S256x16x1, column Q K 0 slices_S256x16x64_o0_0_0_S256x1x64⟩,
    ⟨S256x16x1, column Q K 1 slices_S256x16x64_o0_1_0_S256x1x64⟩,
    ⟨S256x16x1, column Q K 2 slices_S256x16x64_o0_2_0_S256x1x64⟩,
    ⟨S256x16x1, column Q K 3 slices_S256x16x64_o0_3_0_S256x1x64⟩,
    ⟨S256x16x1, column Q K 4 slices_S256x16x64_o0_4_0_S256x1x64⟩,
    ⟨S256x16x1, column Q K 5 slices_S256x16x64_o0_5_0_S256x1x64⟩,
    ⟨S256x16x1, column Q K 6 slices_S256x16x64_o0_6_0_S256x1x64⟩,
    ⟨S256x16x1, column Q K 7 slices_S256x16x64_o0_7_0_S256x1x64⟩,
    ⟨S256x16x1, column Q K 8 slices_S256x16x64_o0_8_0_S256x1x64⟩,
    ⟨S256x16x1, column Q K 9 slices_S256x16x64_o0_9_0_S256x1x64⟩,
    ⟨S256x16x1, column Q K 10 slices_S256x16x64_o0_10_0_S256x1x64⟩,
    ⟨S256x16x1, column Q K 11 slices_S256x16x64_o0_11_0_S256x1x64⟩,
    ⟨S256x16x1, column Q K 12 slices_S256x16x64_o0_12_0_S256x1x64⟩,
    ⟨S256x16x1, column Q K 13 slices_S256x16x64_o0_13_0_S256x1x64⟩,
    ⟨S256x16x1, column Q K 14 slices_S256x16x64_o0_14_0_S256x1x64⟩,
    ⟨S256x16x1, column Q K 15 slices_S256x16x64_o0_15_0_S256x1x64⟩ ]

/-- The logits: the sixteen columns concatenated along the last axis. -/
def logits (Q K : FVec Ideal S256x16x64 .f32) : FVec Ideal S256x16x16 .f32 :=
  concatenate S256x16x16 2 (pieces Q K) concatenates_S256x16x1_S256x16x1_S256x16x1_S256x16x1_S256x16x1_S256x16x1_S256x16x1_S256x16x1_S256x16x1_S256x16x1_S256x16x1_S256x16x1_S256x16x1_S256x16x1_S256x16x1_S256x16x1_S256x16x16_d2

/-- Each column is one wide, so the columns before the k-th take up k places. -/
theorem pieces_pre (Q K : FVec Ideal S256x16x64 .f32) (k : Nat) (hk : k < 16) :
    ((((pieces Q K).take k).map (·.1)).map fun s : Shape =>
      if h : s.rank = S256x16x16.rank then s.size ((2 : Fin S256x16x16.rank).cast h.symm) else 0).sum = k := by
  have e : (pieces Q K).map (·.1) = List.replicate 16 S256x16x1 := rfl
  have h1 : (if h : S256x16x1.rank = S256x16x16.rank then S256x16x1.size ((2 : Fin S256x16x16.rank).cast h.symm) else 0) = 1 := rfl
  rw [List.map_take, e, List.take_replicate, List.map_replicate, List.sum_replicate, h1, smul_eq_mul, mul_one]
  omega

/-- The logits at a head whose number is known: that head's column. -/
theorem logits_piece (Q K : FVec Ideal S256x16x64 .f32) (p : Fin 256) (l : Fin 16) (k : Nat) (hk : k < 16)
    (hs : S256x16x64.Slices ![0, k, 0] S256x1x64)
    (hxk : (pieces Q K)[k]'hk = ⟨S256x16x1, column Q K k hs⟩) :
    logits Q K (ix3 p l ⟨k, hk⟩) = ∑ e : Fin 64, Q (ix3 p l e) * K (ix3 p ⟨k, hk⟩ e) := by
  refine (concatenate_apply_piece (2 : Fin S256x16x16.rank) (pieces Q K) concatenates_S256x16x1_S256x16x1_S256x16x1_S256x16x1_S256x16x1_S256x16x1_S256x16x1_S256x16x1_S256x16x1_S256x16x1_S256x16x1_S256x16x1_S256x16x1_S256x16x1_S256x16x1_S256x16x1_S256x16x16_d2
    (ix3 p l ⟨k, hk⟩) k hk S256x16x1 (column Q K k hs) hxk rfl k (pieces_pre Q K k hk) (ix3 p l (0 : Fin 1)) ?_ rfl).trans
    (column_apply Q K k hk hs p l 0)
  intro b hb
  match b with
  | ⟨0, _⟩ => rfl
  | ⟨1, _⟩ => rfl
  | ⟨2, _⟩ => exact absurd rfl hb

/-- The logits at (p, l, g): head l's query against head g's key. -/
theorem logits_apply (Q K : FVec Ideal S256x16x64 .f32) (p : Fin 256) (l g : Fin 16) :
    logits Q K (ix3 p l g) = ∑ e : Fin 64, Q (ix3 p l e) * K (ix3 p g e) := by
  obtain ⟨k, hk⟩ := g
  interval_cases k
  · exact logits_piece Q K p l 0 hk slices_S256x16x64_o0_0_0_S256x1x64 rfl
  · exact logits_piece Q K p l 1 hk slices_S256x16x64_o0_1_0_S256x1x64 rfl
  · exact logits_piece Q K p l 2 hk slices_S256x16x64_o0_2_0_S256x1x64 rfl
  · exact logits_piece Q K p l 3 hk slices_S256x16x64_o0_3_0_S256x1x64 rfl
  · exact logits_piece Q K p l 4 hk slices_S256x16x64_o0_4_0_S256x1x64 rfl
  · exact logits_piece Q K p l 5 hk slices_S256x16x64_o0_5_0_S256x1x64 rfl
  · exact logits_piece Q K p l 6 hk slices_S256x16x64_o0_6_0_S256x1x64 rfl
  · exact logits_piece Q K p l 7 hk slices_S256x16x64_o0_7_0_S256x1x64 rfl
  · exact logits_piece Q K p l 8 hk slices_S256x16x64_o0_8_0_S256x1x64 rfl
  · exact logits_piece Q K p l 9 hk slices_S256x16x64_o0_9_0_S256x1x64 rfl
  · exact logits_piece Q K p l 10 hk slices_S256x16x64_o0_10_0_S256x1x64 rfl
  · exact logits_piece Q K p l 11 hk slices_S256x16x64_o0_11_0_S256x1x64 rfl
  · exact logits_piece Q K p l 12 hk slices_S256x16x64_o0_12_0_S256x1x64 rfl
  · exact logits_piece Q K p l 13 hk slices_S256x16x64_o0_13_0_S256x1x64 rfl
  · exact logits_piece Q K p l 14 hk slices_S256x16x64_o0_14_0_S256x1x64 rfl
  · exact logits_piece Q K p l 15 hk slices_S256x16x64_o0_15_0_S256x1x64 rfl

/-- The key projection likewise. -/
theorem k_apply (x0 : Vec Ideal S256x1024 .f32) (w : Vec Ideal S1024x1024 .bf16) (p : Fin 256) (h : Fin 16) (d : Fin 64) :
    k0_pay5 x0 w (ix3 p h d) = ∑ c : Fin 1024, x0 (ix2 p c) * w (ix2 (hd h d) c) := by
  unfold k0_pay5 k0_pay2
  rw [shapeCast_self]
  refine (heads_apply _ p h d).trans ?_
  exact mm_apply _ _ p (hd h d)

/-- The value projection likewise (through its two format changes). -/
theorem v_apply (x0 : Vec Ideal S256x1024 .f32) (w : Vec Ideal S1024x1024 .bf16) (p : Fin 256) (h : Fin 16) (d : Fin 64) :
    k0_pay29 (k0_pay3 x0 w) (ix3 p h d) = ∑ c : Fin 1024, x0 (ix2 p c) * w (ix2 (hd h d) c) := by
  unfold k0_pay29 k0_pay3 k0_pay2
  rw [shapeCast_self]
  refine (heads_apply _ p h d).trans ?_
  exact mm_apply _ _ p (hd h d)

/-- The softmax scores of a block as the body computes them: the sixteen per-head logit columns (nine computed in
    the first two parts of the body, seven in the third), concatenated, scaled, and normalized. -/
def scores (x0 : Vec Ideal S256x1024 .f32) (x1 x2 : Vec Ideal S1024x1024 .bf16) : FVec Ideal S256x16x16 .f32 :=
  k0_pay28 (k0_pay12 (k0_pay4 x0 x1) (k0_pay5 x0 x2)) (k0_pay13 (k0_pay4 x0 x1) (k0_pay5 x0 x2)) (k0_pay14 (k0_pay4 x0 x1) (k0_pay5 x0 x2)) (k0_pay15 (k0_pay4 x0 x1) (k0_pay5 x0 x2)) (k0_pay16 (k0_pay4 x0 x1) (k0_pay5 x0 x2)) (k0_pay17 (k0_pay4 x0 x1) (k0_pay5 x0 x2)) (k0_pay18 (k0_pay4 x0 x1) (k0_pay5 x0 x2)) (k0_pay19 (k0_pay6 x0 x1 x2)) (k0_pay20 (k0_pay7 x0 x1 x2)) (k0_pay21 (k0_pay8 x0 x1 x2)) (k0_pay22 (k0_pay9 x0 x1 x2)) (k0_pay23 (k0_pay10 x0 x1 x2)) (k0_pay24 (k0_pay11 x0 x1 x2)) (k0_pay25 (k0_pay4 x0 x1) (k0_pay5 x0 x2)) (k0_pay26 (k0_pay4 x0 x1) (k0_pay5 x0 x2)) (k0_pay27 (k0_pay4 x0 x1) (k0_pay5 x0 x2))

/-- The scores are the logits of the projected queries and keys, scaled, exponentiated less their maximum, and
    normalized: the body's operations in their order. -/
theorem scores_eq (x0 : Vec Ideal S256x1024 .f32) (x1 x2 : Vec Ideal S1024x1024 .bf16) :
    scores x0 x1 x2 = normd (expd (scaled (logits (k0_pay4 x0 x1) (k0_pay5 x0 x2)))) := rfl

/-- Row p's score of head l against head g: the softmax over g of the scaled products of head l's query with each
    head's key. -/
theorem scores_apply (x0 : Vec Ideal S256x1024 .f32) (x1 x2 : Vec Ideal S1024x1024 .bf16) (p : Fin 256) (l g : Fin 16) :
    scores x0 x1 x2 (ix3 p l g)
      = soft (fun g' => (∑ e : Fin 64, k0_pay4 x0 x1 (ix3 p l e) * k0_pay5 x0 x2 (ix3 p g' e)) * scale) g := by
  rw [scores_eq]
  refine (softmax_apply _ p l g).trans ?_
  refine congrArg (fun s => soft s g) (funext fun g' => ?_)
  exact congrArg (· * scale) (logits_apply _ _ p l g')

end Cert.KernelIdeal.Body

end
-- ==== Proof.KMix.lean ====
/-
  The kernel body's second half read at an index: the scores applied to the values, accumulated head by head onto
  zero, and the output projection of the head-major flattening of the result.
-/
import proofs.«167162_j25314537242916_2_alg».proof.Proof.Gen.KernelIdeal.Skeleton
import proofs.«167162_j25314537242916_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Attn

/-! ## One accumulation step's product -/

/-- The product one accumulation step adds: column g of the scores spread along the dimensions, times head g's
    values spread along the rows. -/
def term (S : FVec Ideal S256x16x16 .f32) (Vf : FVec Ideal S256x16x64 .f32) (g : Nat)
    (hS : S256x16x16.Slices ![0, 0, g] S256x16x1) (hV : S256x16x64.Slices ![0, g, 0] S256x1x64) :
    FVec Ideal S256x16x64 .f32 :=
  mulf (broadcastTo S256x16x64 (extractStridedSlice S256x16x1 ![0, 0, g] S hS) broadcasts_S256x16x1_S256x16x64)
    (broadcastTo S256x16x64 (extractStridedSlice S256x1x64 ![0, g, 0] Vf hV) broadcasts_S256x1x64_S256x16x64)

/-- Column g of the scores spread along the dimensions reads, at (p, l, d), the score (p, l, g). -/
theorem spreadS_apply (S : FVec Ideal S256x16x16 .f32) (g : Nat) (hg : g < 16)
    (hS : S256x16x16.Slices ![0, 0, g] S256x16x1) (p : Fin 256) (l : Fin 16) (d : Fin 64) :
    broadcastTo S256x16x64 (extractStridedSlice S256x16x1 ![0, 0, g] S hS) broadcasts_S256x16x1_S256x16x64 (ix3 p l d)
      = S (ix3 p l ⟨g, hg⟩) := by
  refine (broadcastTo_apply _ _ (ix3 p l d) (ix3 p l (0 : Fin 1)) (fun a => match a with
    | ⟨0, _⟩ => rfl
    | ⟨1, _⟩ => rfl
    | ⟨2, _⟩ => rfl)).trans ?_
  exact extractStridedSlice_apply _ _ _ (ix3 p l (0 : Fin 1)) (ix3 p l (⟨g, hg⟩ : Fin 16)) (fun a => match a with
    | ⟨0, _⟩ => by show p.val = 0 + p.val; omega
    | ⟨1, _⟩ => by show l.val = 0 + l.val; omega
    | ⟨2, _⟩ => by show g = g + 0; omega)

/-- Head g's values spread along the rows read, at (p, l, d), the value (p, g, d). -/
theorem spreadV_apply (Vf : FVec Ideal S256x16x64 .f32) (g : Nat) (hg : g < 16)
    (hV : S256x16x64.Slices ![0, g, 0] S256x1x64) (p : Fin 256) (l : Fin 16) (d : Fin 64) :
    broadcastTo S256x16x64 (extractStridedSlice S256x1x64 ![0, g, 0] Vf hV) broadcasts_S256x1x64_S256x16x64 (ix3 p l d)
      = Vf (ix3 p ⟨g, hg⟩ d) := by
  refine (broadcastTo_apply _ _ (ix3 p l d) (ix3 p (0 : Fin 1) d) (fun a => match a with
    | ⟨0, _⟩ => rfl
    | ⟨1, _⟩ => rfl
    | ⟨2, _⟩ => rfl)).trans ?_
  exact extractStridedSlice_apply _ _ _ (ix3 p (0 : Fin 1) d) (ix3 p (⟨g, hg⟩ : Fin 16) d) (fun a => match a with
    | ⟨0, _⟩ => by show p.val = 0 + p.val; omega
    | ⟨1, _⟩ => by show g = g + 0; omega
    | ⟨2, _⟩ => by show d.val = 0 + d.val; omega)

/-- One step's product at (p, l, d): the score (p, l, g) times the value (p, g, d). -/
theorem term_apply (S : FVec Ideal S256x16x16 .f32) (Vf : FVec Ideal S256x16x64 .f32) (g : Nat) (hg : g < 16)
    (hS : S256x16x16.Slices ![0, 0, g] S256x16x1) (hV : S256x16x64.Slices ![0, g, 0] S256x1x64)
    (p : Fin 256) (l : Fin 16) (d : Fin 64) :
    term S Vf g hS hV (ix3 p l d) = S (ix3 p l ⟨g, hg⟩) * Vf (ix3 p ⟨g, hg⟩ d) := by
  unfold term
  rw [mulf_apply, spreadS_apply S g hg hS p l d, spreadV_apply Vf g hg hV p l d]

/-- One accumulation step at (p, l, d): what was accumulated there, plus the score (p, l, g) times the value (p, g, d). -/
theorem step_apply (acc : FVec Ideal S256x16x64 .f32) (S : FVec Ideal S256x16x16 .f32) (Vf : FVec Ideal S256x16x64 .f32)
    (g : Nat) (hg : g < 16) (hS : S256x16x16.Slices ![0, 0, g] S256x16x1) (hV : S256x16x64.Slices ![0, g, 0] S256x1x64)
    (p : Fin 256) (l : Fin 16) (d : Fin 64) (x : EReal) (hacc : acc (ix3 p l d) = x) :
    addf acc (term S Vf g hS hV) (ix3 p l d) = x + S (ix3 p l ⟨g, hg⟩) * Vf (ix3 p ⟨g, hg⟩ d) := by
  rw [addf_apply, hacc, term_apply S Vf g hg hS hV p l d]

/-! ## The sixteen steps -/

/-- The sixteen accumulation steps (five in the body's third part, ten in its fourth, the last one outside) add up
    to the sum over the heads g of the score (l, g) times head g's value at d — whatever the sixteen logit columns
    the scores are computed from. -/
theorem mix_apply (v16 : FVec Ideal S256x16x64 .bf16)
    (v58 v62 v66 v70 v74 v78 v82 : FVec Ideal S256x16 .f32) (v83 v84 v85 v86 v87 v88 v89 v90 v91 : FVec Ideal S256x16x1 .f32)
    (p : Fin 256) (l : Fin 16) (d : Fin 64) :
    k0_pay32 (k0_pay28 v58 v62 v66 v70 v74 v78 v82 v83 v84 v85 v86 v87 v88 v89 v90 v91) (k0_pay29 v16) (k0_pay30 v16 v58 v62 v66 v70 v74 v78 v82 v83 v84 v85 v86 v87 v88 v89 v90 v91) (k0_pay31 v16 v58 v62 v66 v70 v74 v78 v82 v83 v84 v85 v86 v87 v88 v89 v90 v91) (ix3 p l d)
        + k0_pay33 (k0_pay28 v58 v62 v66 v70 v74 v78 v82 v83 v84 v85 v86 v87 v88 v89 v90 v91) (k0_pay29 v16) (ix3 p l d)
      = ∑ g : Fin 16, k0_pay28 v58 v62 v66 v70 v74 v78 v82 v83 v84 v85 v86 v87 v88 v89 v90 v91 (ix3 p l g) * k0_pay29 v16 (ix3 p g d) := by
  unfold k0_pay32 k0_pay33 k0_pay30 k0_pay31
  generalize k0_pay28 v58 v62 v66 v70 v74 v78 v82 v83 v84 v85 v86 v87 v88 v89 v90 v91 = S
  generalize k0_pay29 v16 = Vf
  refine Eq.trans ?_ (Attn.sum16 (fun g : Fin 16 => S (ix3 p l g) * Vf (ix3 p g d)))
  refine congrArg₂ (· + ·) ?_ (term_apply S Vf 15 (by omega) _ _ p l d)
  refine step_apply _ S Vf 14 (by omega) _ _ p l d _ ?_
  refine step_apply _ S Vf 13 (by omega) _ _ p l d _ ?_
  refine step_apply _ S Vf 12 (by omega) _ _ p l d _ ?_
  refine step_apply _ S Vf 11 (by omega) _ _ p l d _ ?_
  refine step_apply _ S Vf 10 (by omega) _ _ p l d _ ?_
  refine step_apply _ S Vf 9 (by omega) _ _ p l d _ ?_
  refine step_apply _ S Vf 8 (by omega) _ _ p l d _ ?_
  refine step_apply _ S Vf 7 (by omega) _ _ p l d _ ?_
  refine step_apply _ S Vf 6 (by omega) _ _ p l d _ ?_
  refine step_apply _ S Vf 5 (by omega) _ _ p l d _ ?_
  refine step_apply _ S Vf 4 (by omega) _ _ p l d _ ?_
  refine step_apply _ S Vf 3 (by omega) _ _ p l d _ ?_
  refine step_apply _ S Vf 2 (by omega) _ _ p l d _ ?_
  refine step_apply _ S Vf 1 (by omega) _ _ p l d _ ?_
  refine step_apply _ S Vf 0 (by omega) _ _ p l d _ ?_
  exact Ideal.ofBits_zero_f32

/-! ## The output projection -/

/-- The left operand's index at output (p, o) and contraction position k: (p, k). -/
theorem lhsIdx_eq (p : Fin 256) (o k : Fin 1024) :
    dot_S256x1024_S1024x1024_S256x1024_1_1_0_0_n_n.lhsIdx (ix2 p o) ((contrEquiv1 dot_S256x1024_S1024x1024_S256x1024_1_1_0_0_n_n 1024 rfl rfl).symm k) = ix2 p k := by
  have hk := contrEquiv1_symm_val dot_S256x1024_S1024x1024_S256x1024_1_1_0_0_n_n 1024 rfl rfl k
  refine funext fun a => Fin.ext ?_
  match a with
  | ⟨0, _⟩ =>
    show (dot_S256x1024_S1024x1024_S256x1024_1_1_0_0_n_n.lhsIdx (ix2 p o) _ 0).val = p.val
    unfold DotDims.lhsIdx
    rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
    rfl
  | ⟨1, _⟩ => exact (dot_S256x1024_S1024x1024_S256x1024_1_1_0_0_n_n.lhsIdx_val_of_single rfl (ix2 p o) _).trans hk

/-- The right operand's index at output (p, o) and contraction position k: (o, k). -/
theorem rhsIdx_eq (p : Fin 256) (o k : Fin 1024) :
    dot_S256x1024_S1024x1024_S256x1024_1_1_0_0_n_n.rhsIdx (ix2 p o) ((contrEquiv1 dot_S256x1024_S1024x1024_S256x1024_1_1_0_0_n_n 1024 rfl rfl).symm k) = ix2 o k := by
  have hk := contrEquiv1_symm_val dot_S256x1024_S1024x1024_S256x1024_1_1_0_0_n_n 1024 rfl rfl k
  refine funext fun a => Fin.ext ?_
  match a with
  | ⟨0, _⟩ =>
    show (dot_S256x1024_S1024x1024_S256x1024_1_1_0_0_n_n.rhsIdx (ix2 p o) _ 0).val = o.val
    unfold DotDims.rhsIdx
    rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
    rfl
  | ⟨1, _⟩ => exact (dot_S256x1024_S1024x1024_S256x1024_1_1_0_0_n_n.rhsIdx_val_of_single rfl (ix2 p o) _).trans hk

/-- The head-major flattening read at feature l·64+d is the unflattened value at (l, d). -/
theorem flat_apply (c : FVec Ideal S256x16x64 .bf16) (p : Fin 256) (l : Fin 16) (d : Fin 64) :
    shapeCast S256x1024 c shapeCasts_S256x16x64_S256x1024 (ix2 p (hd l d)) = c (ix3 p l d) :=
  shapeCast_apply _ _ (ix2 p (hd l d)) (ix3 p l d) (by
    rw [Shape.rowMajor_val_three, Shape.rowMajor_val_two]
    show (p.val * 16 + l.val) * 64 + d.val = p.val * 1024 + (l.val * 64 + d.val)
    omega)

/-- The output projection at (row p, feature o): the sum over heads and dimensions of the accumulated value against
    the output weight block's row o at the head-major feature l·64+d. -/
theorem final_apply (a b : FVec Ideal S256x16x64 .f32) (x4 : Vec Ideal S1024x1024 .bf16) (p : Fin 256) (o : Fin 1024) :
    k0_pay1 a b x4 (ix2 p o)
      = ∑ l : Fin 16, ∑ d : Fin 64, (a (ix3 p l d) + b (ix3 p l d)) * x4 (ix2 o (hd l d)) := by
  unfold k0_pay1
  show FloatOps.matmul dot_S256x1024_S1024x1024_S256x1024_1_1_0_0_n_n none
      (shapeCast S256x1024 (truncf .bf16 (addf a b) bitsLt_bf16_f32) shapeCasts_S256x16x64_S256x1024)
      (shapeCast S1024x1024 x4 shapeCasts_S1024x1024_S1024x1024) (constant S256x1024 .f32 0x00000000#32) (ix2 p o) = _
  rw [shapeCast_self]
  generalize hc : truncf .bf16 (addf a b) bitsLt_bf16_f32 = c
  refine (Ideal.matmul_constant_zero_apply (φ₁ := .bf16) (φ₂ := .bf16) dot_S256x1024_S1024x1024_S256x1024_1_1_0_0_n_n none
    (shapeCast S256x1024 c shapeCasts_S256x16x64_S256x1024) x4 (ix2 p o)).trans ?_
  refine ((Equiv.sum_comp (contrEquiv1 dot_S256x1024_S1024x1024_S256x1024_1_1_0_0_n_n 1024 rfl rfl).symm _).symm).trans ?_
  refine (Attn.sum_hd _).trans ?_
  refine Finset.sum_congr rfl fun l _ => Finset.sum_congr rfl fun d _ => ?_
  rw [lhsIdx_eq p o (hd l d), rhsIdx_eq p o (hd l d), flat_apply c p l d, ← hc]
  rfl

end Cert.KernelIdeal.Body

end
-- ==== Proof.KBody.lean ====
/-
  The kernel body's whole payload read at an index: row p, output feature o of what the body stores is the
  attention function of row p of the first block and the four weight blocks, queries, keys and values all read
  head-major in the weight blocks' rows and the output weight's row o read head-major in its columns.
-/
import proofs.«167162_j25314537242916_2_alg».proof.Proof.Gen.KernelIdeal.Frame
import proofs.«167162_j25314537242916_2_alg».proof.Proof.KScores
import proofs.«167162_j25314537242916_2_alg».proof.Proof.KMix
import proofs.«167162_j25314537242916_2_alg».proof.Proof.Spec
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.Attn

theorem offs_zero : (![0, 0] : Fin 2 → Nat) = fun _ => 0 := funext fun a => by fin_cases a <;> rfl

/-- The value the body stores, as one term of the five loaded blocks. -/
def pay (x0 : Vec Ideal S256x1024 .f32) (x1 x2 x3 x4 : Vec Ideal S1024x1024 .bf16) : FVec Ideal S256x1024 .f32 :=
  k0_pay1 (k0_pay32 (k0_pay28 (k0_pay12 (k0_pay4 x0 x1) (k0_pay5 x0 x2)) (k0_pay13 (k0_pay4 x0 x1) (k0_pay5 x0 x2)) (k0_pay14 (k0_pay4 x0 x1) (k0_pay5 x0 x2)) (k0_pay15 (k0_pay4 x0 x1) (k0_pay5 x0 x2)) (k0_pay16 (k0_pay4 x0 x1) (k0_pay5 x0 x2)) (k0_pay17 (k0_pay4 x0 x1) (k0_pay5 x0 x2)) (k0_pay18 (k0_pay4 x0 x1) (k0_pay5 x0 x2)) (k0_pay19 (k0_pay6 x0 x1 x2)) (k0_pay20 (k0_pay7 x0 x1 x2)) (k0_pay21 (k0_pay8 x0 x1 x2)) (k0_pay22 (k0_pay9 x0 x1 x2)) (k0_pay23 (k0_pay10 x0 x1 x2)) (k0_pay24 (k0_pay11 x0 x1 x2)) (k0_pay25 (k0_pay4 x0 x1) (k0_pay5 x0 x2)) (k0_pay26 (k0_pay4 x0 x1) (k0_pay5 x0 x2)) (k0_pay27 (k0_pay4 x0 x1) (k0_pay5 x0 x2))) (k0_pay29 (k0_pay3 x0 x3)) (k0_pay30 (k0_pay3 x0 x3) (k0_pay12 (k0_pay4 x0 x1) (k0_pay5 x0 x2)) (k0_pay13 (k0_pay4 x0 x1) (k0_pay5 x0 x2)) (k0_pay14 (k0_pay4 x0 x1) (k0_pay5 x0 x2)) (k0_pay15 (k0_pay4 x0 x1) (k0_pay5 x0 x2)) (k0_pay16 (k0_pay4 x0 x1) (k0_pay5 x0 x2)) (k0_pay17 (k0_pay4 x0 x1) (k0_pay5 x0 x2)) (k0_pay18 (k0_pay4 x0 x1) (k0_pay5 x0 x2)) (k0_pay19 (k0_pay6 x0 x1 x2)) (k0_pay20 (k0_pay7 x0 x1 x2)) (k0_pay21 (k0_pay8 x0 x1 x2)) (k0_pay22 (k0_pay9 x0 x1 x2)) (k0_pay23 (k0_pay10 x0 x1 x2)) (k0_pay24 (k0_pay11 x0 x1 x2)) (k0_pay25 (k0_pay4 x0 x1) (k0_pay5 x0 x2)) (k0_pay26 (k0_pay4 x0 x1) (k0_pay5 x0 x2)) (k0_pay27 (k0_pay4 x0 x1) (k0_pay5 x0 x2))) (k0_pay31 (k0_pay3 x0 x3) (k0_pay12 (k0_pay4 x0 x1) (k0_pay5 x0 x2)) (k0_pay13 (k0_pay4 x0 x1) (k0_pay5 x0 x2)) (k0_pay14 (k0_pay4 x0 x1) (k0_pay5 x0 x2)) (k0_pay15 (k0_pay4 x0 x1) (k0_pay5 x0 x2)) (k0_pay16 (k0_pay4 x0 x1) (k0_pay5 x0 x2)) (k0_pay17 (k0_pay4 x0 x1) (k0_pay5 x0 x2)) (k0_pay18 (k0_pay4 x0 x1) (k0_pay5 x0 x2)) (k0_pay19 (k0_pay6 x0 x1 x2)) (k0_pay20 (k0_pay7 x0 x1 x2)) (k0_pay21 (k0_pay8 x0 x1 x2)) (k0_pay22 (k0_pay9 x0 x1 x2)) (k0_pay23 (k0_pay10 x0 x1 x2)) (k0_pay24 (k0_pay11 x0 x1 x2)) (k0_pay25 (k0_pay4 x0 x1) (k0_pay5 x0 x2)) (k0_pay26 (k0_pay4 x0 x1) (k0_pay5 x0 x2)) (k0_pay27 (k0_pay4 x0 x1) (k0_pay5 x0 x2)))) (k0_pay33 (k0_pay28 (k0_pay12 (k0_pay4 x0 x1) (k0_pay5 x0 x2)) (k0_pay13 (k0_pay4 x0 x1) (k0_pay5 x0 x2)) (k0_pay14 (k0_pay4 x0 x1) (k0_pay5 x0 x2)) (k0_pay15 (k0_pay4 x0 x1) (k0_pay5 x0 x2)) (k0_pay16 (k0_pay4 x0 x1) (k0_pay5 x0 x2)) (k0_pay17 (k0_pay4 x0 x1) (k0_pay5 x0 x2)) (k0_pay18 (k0_pay4 x0 x1) (k0_pay5 x0 x2)) (k0_pay19 (k0_pay6 x0 x1 x2)) (k0_pay20 (k0_pay7 x0 x1 x2)) (k0_pay21 (k0_pay8 x0 x1 x2)) (k0_pay22 (k0_pay9 x0 x1 x2)) (k0_pay23 (k0_pay10 x0 x1 x2)) (k0_pay24 (k0_pay11 x0 x1 x2)) (k0_pay25 (k0_pay4 x0 x1) (k0_pay5 x0 x2)) (k0_pay26 (k0_pay4 x0 x1) (k0_pay5 x0 x2)) (k0_pay27 (k0_pay4 x0 x1) (k0_pay5 x0 x2))) (k0_pay29 (k0_pay3 x0 x3))) x4

/-- What the body leaves in the output window's buffer is that term: the one store covers the buffer and every
    load is of a whole block. -/
theorem out_eq_pay (x0 : Vec Ideal S256x1024 .f32) (x1 x2 x3 x4 : Vec Ideal S1024x1024 .bf16) :
    out0_5 x0 x1 x2 x3 x4 = pay x0 x1 x2 x3 x4 := by
  unfold out0_5
  rw [View.canon_unit_zero offs_zero]
  simp only [View.ld_unit_zero (S := S256x1024) offs_zero, View.ld_unit_zero (S := S1024x1024) offs_zero]
  rfl

/-- Row p, feature o of the stored value. -/
theorem pay_apply (x0 : Vec Ideal S256x1024 .f32) (x1 x2 x3 x4 : Vec Ideal S1024x1024 .bf16) (p : Fin 256) (o : Fin 1024) :
    pay x0 x1 x2 x3 x4 (ix2 p o)
      = Attn.out (fun h d => ∑ c : Fin 1024, x0 (ix2 p c) * x1 (ix2 (hd h d) c))
          (fun g d => ∑ c : Fin 1024, x0 (ix2 p c) * x2 (ix2 (hd g d) c))
          (fun g d => ∑ c : Fin 1024, x0 (ix2 p c) * x3 (ix2 (hd g d) c))
          (fun l d => x4 (ix2 o (hd l d))) := by
  unfold pay
  refine (final_apply _ _ x4 p o).trans ?_
  unfold Attn.out
  refine Finset.sum_congr rfl fun l _ => Finset.sum_congr rfl fun d _ => congrArg (· * x4 (ix2 o (hd l d))) ?_
  refine (mix_apply (k0_pay3 x0 x3) (k0_pay12 (k0_pay4 x0 x1) (k0_pay5 x0 x2)) (k0_pay13 (k0_pay4 x0 x1) (k0_pay5 x0 x2)) (k0_pay14 (k0_pay4 x0 x1) (k0_pay5 x0 x2)) (k0_pay15 (k0_pay4 x0 x1) (k0_pay5 x0 x2)) (k0_pay16 (k0_pay4 x0 x1) (k0_pay5 x0 x2)) (k0_pay17 (k0_pay4 x0 x1) (k0_pay5 x0 x2)) (k0_pay18 (k0_pay4 x0 x1) (k0_pay5 x0 x2)) (k0_pay19 (k0_pay6 x0 x1 x2)) (k0_pay20 (k0_pay7 x0 x1 x2)) (k0_pay21 (k0_pay8 x0 x1 x2)) (k0_pay22 (k0_pay9 x0 x1 x2)) (k0_pay23 (k0_pay10 x0 x1 x2)) (k0_pay24 (k0_pay11 x0 x1 x2)) (k0_pay25 (k0_pay4 x0 x1) (k0_pay5 x0 x2)) (k0_pay26 (k0_pay4 x0 x1) (k0_pay5 x0 x2)) (k0_pay27 (k0_pay4 x0 x1) (k0_pay5 x0 x2)) p l d).trans ?_
  unfold Attn.attn
  refine Finset.sum_congr rfl fun g _ => ?_
  rw [v_apply]
  refine congrArg (· * _) ?_
  refine (scores_apply x0 x1 x2 p l g).trans ?_
  simp only [q_apply, k_apply]

end Cert.KernelIdeal.Body

end
-- ==== Proof.Glue.lean ====
/-
  From the kernel's blocks to its result array.  The region finds the four weight arrays re-laid by the host
  operations before it: the query weight as given, the key and value weights with their rows permuted from
  dimension-major (row d·16+g) to head-major (row g·64+d), the output weight with its columns permuted the same way.
  Point t of the grid reads rows t·256 … t·256+255 of the input and the four re-laid weights whole, and writes rows
  t·256 … t·256+255 of the result; the 256 points' blocks tile the result, so the result array is the attention
  function of the argument arrays at every index.
-/
import proofs.«167162_j25314537242916_2_alg».proof.Proof.Gen.KernelIdeal.Value
import proofs.«167162_j25314537242916_2_alg».proof.Proof.KBody
import proofs.«167162_j25314537242916_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators

namespace Cert.KernelIdeal.Glue

open Cert.KernelIdeal Cert.KernelIdeal.Gen Cert.KernelIdeal.Value Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The re-laid weights, as the region finds them -/

/-- The query weight is found as given (its format change is the identity). -/
theorem V_v9 (c : Dev nD) : @Eq (S1024x1024.Idx → EReal) (V m c main_v9)
    (truncf (F := Ideal) .bf16 ((m ((c : Thread nD τ).loc main_arg1)) : FVec Ideal S1024x1024 .f32) bitsLt_bf16_f32) := by
  dsimp only [Gen.V, Gen.hostOps0]; after_results; try rfl

/-- The key weight is found cut into [64, 16, 1024], its first two axes exchanged, and flattened again. -/
theorem V_v10 (c : Dev nD) : @Eq (S1024x1024.Idx → EReal) (V m c main_v10)
    (truncf (F := Ideal) .bf16 (shapeCast S1024x1024 (transpose S16x64x1024 [1, 0, 2] (shapeCast S64x16x1024 ((m ((c : Thread nD τ).loc main_arg2)) : FVec Ideal S1024x1024 .f32) shapeCasts_S1024x1024_S64x16x1024) transposes_S64x16x1024_S16x64x1024_1_0_2) shapeCasts_S16x64x1024_S1024x1024) bitsLt_bf16_f32) := by
  dsimp only [Gen.V, Gen.hostOps0]; after_results; try rfl

/-- The value weight likewise. -/
theorem V_v11 (c : Dev nD) : @Eq (S1024x1024.Idx → EReal) (V m c main_v11)
    (truncf (F := Ideal) .bf16 (shapeCast S1024x1024 (transpose S16x64x1024 [1, 0, 2] (shapeCast S64x16x1024 ((m ((c : Thread nD τ).loc main_arg3)) : FVec Ideal S1024x1024 .f32) shapeCasts_S1024x1024_S64x16x1024) transposes_S64x16x1024_S16x64x1024_1_0_2) shapeCasts_S16x64x1024_S1024x1024) bitsLt_bf16_f32) := by
  dsimp only [Gen.V, Gen.hostOps0]; after_results; try rfl

/-- The output weight is found cut into [1024, 64, 16], its last two axes exchanged, and flattened again. -/
theorem V_v12 (c : Dev nD) : @Eq (S1024x1024.Idx → EReal) (V m c main_v12)
    (truncf (F := Ideal) .bf16 (shapeCast S1024x1024 (transpose S1024x16x64 [0, 2, 1] (shapeCast S1024x64x16 ((m ((c : Thread nD τ).loc main_arg4)) : FVec Ideal S1024x1024 .f32) shapeCasts_S1024x1024_S1024x64x16) transposes_S1024x64x16_S1024x16x64_0_2_1) shapeCasts_S1024x16x64_S1024x1024) bitsLt_bf16_f32) := by
  dsimp only [Gen.V, Gen.hostOps0]; after_results; try rfl

/-- Rows exchanged: cutting rows into [64, 16], exchanging and flattening sends row g·64+d to row d·16+g. -/
theorem rows_relaid (W : FVec Ideal S1024x1024 .f32) (g : Fin 16) (d : Fin 64) (k : Fin 1024) :
    shapeCast S1024x1024 (transpose S16x64x1024 [1, 0, 2] (shapeCast S64x16x1024 W shapeCasts_S1024x1024_S64x16x1024) transposes_S64x16x1024_S16x64x1024_1_0_2) shapeCasts_S16x64x1024_S1024x1024 (ix2 (hd g d) k)
      = W (ix2 (dh d g) k) := by
  have hg : g.val < 16 := g.isLt
  have hd' : d.val < 64 := d.isLt
  have hk : k.val < 1024 := k.isLt
  refine (shapeCast_apply _ shapeCasts_S16x64x1024_S1024x1024 (ix2 (hd g d) k) (ix3 g d k) ?_).trans ?_
  · rw [Shape.rowMajor_val_three, Shape.rowMajor_val_two]
    show (g.val * 64 + d.val) * 1024 + k.val = (g.val * 64 + d.val) * 1024 + k.val
    rfl
  refine (transpose_apply [1, 0, 2] _ transposes_S64x16x1024_S16x64x1024_1_0_2 (ix3 g d k) (ix3 d g k) (fun b => match b with
    | ⟨0, _⟩ => rfl
    | ⟨1, _⟩ => rfl
    | ⟨2, _⟩ => rfl)).trans ?_
  refine shapeCast_apply W shapeCasts_S1024x1024_S64x16x1024 (ix3 d g k) (ix2 (dh d g) k) ?_
  rw [Shape.rowMajor_val_three, Shape.rowMajor_val_two]
  show (d.val * 16 + g.val) * 1024 + k.val = (d.val * 16 + g.val) * 1024 + k.val
  rfl

/-- Columns exchanged: cutting columns into [64, 16], exchanging and flattening sends column l·64+d to column d·16+l. -/
theorem cols_relaid (W : FVec Ideal S1024x1024 .f32) (o : Fin 1024) (l : Fin 16) (d : Fin 64) :
    shapeCast S1024x1024 (transpose S1024x16x64 [0, 2, 1] (shapeCast S1024x64x16 W shapeCasts_S1024x1024_S1024x64x16) transposes_S1024x64x16_S1024x16x64_0_2_1) shapeCasts_S1024x16x64_S1024x1024 (ix2 o (hd l d))
      = W (ix2 o (dh d l)) := by
  have hl : l.val < 16 := l.isLt
  have hd' : d.val < 64 := d.isLt
  have ho : o.val < 1024 := o.isLt
  refine (shapeCast_apply _ shapeCasts_S1024x16x64_S1024x1024 (ix2 o (hd l d)) (ix3 o l d) ?_).trans ?_
  · rw [Shape.rowMajor_val_three, Shape.rowMajor_val_two]
    show (o.val * 16 + l.val) * 64 + d.val = o.val * 1024 + (l.val * 64 + d.val)
    omega
  refine (transpose_apply [0, 2, 1] _ transposes_S1024x64x16_S1024x16x64_0_2_1 (ix3 o l d) (ix3 o d l) (fun b => match b with
    | ⟨0, _⟩ => rfl
    | ⟨1, _⟩ => rfl
    | ⟨2, _⟩ => rfl)).trans ?_
  refine shapeCast_apply W shapeCasts_S1024x1024_S1024x64x16 (ix3 o d l) (ix2 o (dh d l)) ?_
  rw [Shape.rowMajor_val_three, Shape.rowMajor_val_two]
  show o.val * 1024 + (d.val * 16 + l.val) = (o.val * 64 + d.val) * 16 + l.val
  omega

theorem wq_at (c : Dev nD) (j k : Fin 1024) : V m c main_v9 (ix2 j k) = (m ((c : Thread nD τ).loc main_arg1)) (ix2 j k) :=
  congrFun (V_v9 m c) (ix2 j k)

theorem wk_at (c : Dev nD) (g : Fin 16) (d : Fin 64) (k : Fin 1024) :
    V m c main_v10 (ix2 (hd g d) k) = (m ((c : Thread nD τ).loc main_arg2)) (ix2 (dh d g) k) := by
  have h := congrFun (V_v10 m c) (ix2 (hd g d) k)
  rw [truncf_apply] at h
  rw [h]
  exact rows_relaid _ g d k

theorem wv_at (c : Dev nD) (g : Fin 16) (d : Fin 64) (k : Fin 1024) :
    V m c main_v11 (ix2 (hd g d) k) = (m ((c : Thread nD τ).loc main_arg3)) (ix2 (dh d g) k) := by
  have h := congrFun (V_v11 m c) (ix2 (hd g d) k)
  rw [truncf_apply] at h
  rw [h]
  exact rows_relaid _ g d k

theorem wf_at (c : Dev nD) (o : Fin 1024) (l : Fin 16) (d : Fin 64) :
    V m c main_v12 (ix2 o (hd l d)) = (m ((c : Thread nD τ).loc main_arg4)) (ix2 o (dh d l)) := by
  have h := congrFun (V_v12 m c) (ix2 o (hd l d))
  rw [truncf_apply] at h
  rw [h]
  exact cols_relaid _ o l d

/-! ## The windows' blocks at a point -/

/-- The printed index maps over the grid: the input and the result move one block of rows per point, the four
    weights stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the input block at point t is row t·256+p of the input. -/
theorem iblk0_at (c : Dev nD) (t : Fin cfg0.N) (p : Fin 256) (k : Fin 1024) (n : Fin 65536) (hn : n.val = t.val * 256 + p.val) :
    iblk m c 0 t (ix2 p k) = (m ((c : Thread nD τ).loc main_arg0)) (ix2 n k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = n.val; rw [e0, hn]; omega
  | ⟨1, _⟩ => show win0_0.index t (1 : Fin 2) * 1024 + 1 * k.val = k.val; rw [e1]; omega

/-- The weight blocks are the re-laid weight arrays whole. -/
theorem iblk1_at (c : Dev nD) (t : Fin cfg0.N) (j k : Fin 1024) : iblk m c 1 t (ix2 j k) = V m c main_v9 (ix2 j k) := by
  obtain ⟨-, -, e0, e1, -⟩ := idx_facts t
  show V m c main_v9 (((cfg0.win 1).blk t).view.emb (ix2 j k)) = _
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 1024 + 1 * k.val = k.val; rw [e1]; omega
theorem iblk2_at (c : Dev nD) (t : Fin cfg0.N) (j k : Fin 1024) : iblk m c 2 t (ix2 j k) = V m c main_v10 (ix2 j k) := by
  obtain ⟨-, -, -, -, e0, e1, -⟩ := idx_facts t
  show V m c main_v10 (((cfg0.win 2).blk t).view.emb (ix2 j k)) = _
  refine congrArg _ (funext fun a => Fin.ext ?_)
  match a with
  | ⟨0, _⟩ => show win0_2.index t (0 : Fin 2) * 1024 + 1 * j.val = j.val; rw [e0]; omega
  | ⟨1, _⟩ => show win0_2.index t (1 : Fin 2) * 1024 + 1 * k.val = k.val; rw [e1]; omega
theorem iblk3_at (c : Dev nD) (t : Fin cfg0.N) (j k : Fin 1024) : iblk m c 3 t (ix2 j k) = V m c main_v11 (ix2 j k) := by
  obtain ⟨-, -, -, -, -, -, e0, e1, -⟩ := idx_facts t
  show V m c main_v11 (((cfg0.win 3).blk t).view.emb (ix2 j k)) = _
  refine congrArg _ (funext fun a => Fin.ext ?_)
  match a with
  | ⟨0, _⟩ => show win0_3.index t (0 : Fin 2) * 1024 + 1 * j.val = j.val; rw [e0]; omega
  | ⟨1, _⟩ => show win0_3.index t (1 : Fin 2) * 1024 + 1 * k.val = k.val; rw [e1]; omega
theorem iblk4_at (c : Dev nD) (t : Fin cfg0.N) (j k : Fin 1024) : iblk m c 4 t (ix2 j k) = V m c main_v12 (ix2 j k) := by
  obtain ⟨-, -, -, -, -, -, -, -, e0, e1, -⟩ := idx_facts t
  show V m c main_v12 (((cfg0.win 4).blk t).view.emb (ix2 j k)) = _
  refine congrArg _ (funext fun a => Fin.ext ?_)
  match a with
  | ⟨0, _⟩ => show win0_4.index t (0 : Fin 2) * 1024 + 1 * j.val = j.val; rw [e0]; omega
  | ⟨1, _⟩ => show win0_4.index t (1 : Fin 2) * 1024 + 1 * k.val = k.val; rw [e1]; omega

/-! ## The result array -/

/-- The attention function of five arrays, as an array. -/
def arrOf (H : S65536x1024.Idx → EReal) (Wq Wk Wv Wf : S1024x1024.Idx → EReal) : S65536x1024.Idx → EReal := fun i =>
  G H Wq Wk Wv Wf ⟨(i 0).val, idx2_lt0 i⟩ ⟨(i 1).val, idx2_lt1 i⟩

theorem arrOf_at (H : S65536x1024.Idx → EReal) (Wq Wk Wv Wf : S1024x1024.Idx → EReal) (i : S65536x1024.Idx)
    (n : Fin 65536) (o : Fin 1024) (h0 : (i 0).val = n.val) (h1 : (i 1).val = o.val) :
    arrOf H Wq Wk Wv Wf i = G H Wq Wk Wv Wf n o := by
  unfold arrOf
  congr 1 <;> exact Fin.ext (by assumption)

/-- What the result array holds after the run: the attention function of the argument arrays. -/
def result (c : Dev nD) : Buf (Elt Ideal) ((c : Thread nD τ).loc main_v13) :=
  arrOf (m ((c : Thread nD τ).loc main_arg0)) (m ((c : Thread nD τ).loc main_arg1)) (m ((c : Thread nD τ).loc main_arg2)) (m ((c : Thread nD τ).loc main_arg3)) (m ((c : Thread nD τ).loc main_arg4))

/-- What point t writes back is rows t·256 … t·256+255 of that array. -/
theorem flushed_eq (c : Dev nD) (t : Fin cfg0.N) :
    (dats m 0 c).flushed 5 t = ((cfg0.win 5).blk t).view.read (Elt Ideal) (result m c) := by
  rw [flushed5, Body.out_eq_pay (iblk m c 0 t) (iblk m c 1 t) (iblk m c 2 t) (iblk m c 3 t) (iblk m c 4 t)]
  obtain ⟨-, -, -, -, -, -, -, -, -, -, e50, e51⟩ := idx_facts t
  have hN : cfg0.N = 256 := N_0
  have ht : t.val < 256 := by have h := t.isLt; omega
  funext j
  obtain ⟨p, o, rfl⟩ : ∃ (p : Fin 256) (o : Fin 1024), j = ix2 p o := ⟨j 0, j 1, eq_ix2 j⟩
  have hp : p.val < 256 := p.isLt
  show Body.pay (iblk m c 0 t) (iblk m c 1 t) (iblk m c 2 t) (iblk m c 3 t) (iblk m c 4 t) (ix2 p o)
    = result m c (((cfg0.win 5).blk t).view.emb (ix2 p o))
  refine (Body.pay_apply (iblk m c 0 t) (iblk m c 1 t) (iblk m c 2 t) (iblk m c 3 t) (iblk m c 4 t) p o).trans ?_
  refine Eq.trans ?_ (arrOf_at _ _ _ _ _ (((cfg0.win 5).blk t).view.emb (ix2 p o)) ⟨t.val * 256 + p.val, by omega⟩ o
    (by show win0_5.index t (0 : Fin 2) * 256 + 1 * p.val = t.val * 256 + p.val; rw [e50]; omega)
    (by show win0_5.index t (1 : Fin 2) * 1024 + 1 * o.val = o.val; rw [e51]; omega)).symm
  unfold G
  congr 1
  · funext h d
    refine Finset.sum_congr rfl fun k _ => ?_
    rw [iblk0_at m c t p k ⟨t.val * 256 + p.val, by omega⟩ rfl, iblk1_at, wq_at]
  · funext g d
    refine Finset.sum_congr rfl fun k _ => ?_
    rw [iblk0_at m c t p k ⟨t.val * 256 + p.val, by omega⟩ rfl, iblk2_at, wk_at]
  · funext g d
    refine Finset.sum_congr rfl fun k _ => ?_
    rw [iblk0_at m c t p k ⟨t.val * 256 + p.val, by omega⟩ rfl, iblk3_at, wv_at]
  · funext l d
    rw [iblk4_at, wf_at]

/-- An index of the result is in point t's block iff its row is among the block's 256 rows. -/
theorem mem_blk (t : Fin cfg0.N) (i : S65536x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v13).slice (win0_5.rect t)).set ↔ _
  rw [View.set_slice_whole, Rect.mem_set_unit]
  exact Iff.rfl

/-- Every index of the result is in the block of the point its row falls in. -/
theorem cover (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  have hN : cfg0.N = 256 := N_0
  have ht : (i 0).val / 256 < cfg0.N := by omega
  obtain ⟨-, -, -, -, -, -, -, -, -, -, e50, e51⟩ := idx_facts ⟨(i 0).val / 256, ht⟩
  refine ⟨⟨(i 0).val / 256, ht⟩, flush0_5 _, ?_⟩
  rw [mem_blk]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    rw [e50]; show (i 0).val / 256 * 256 ≤ (i 0).val ∧ (i 0).val < (i 0).val / 256 * 256 + 256; omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    rw [e51]; omega

/-- The result array after the run. -/
theorem final (c : Dev nD) : (dats m 0 c).arrAt 5 cfg0.N = result m c :=
  (dats m 0 c).arrAt_eq_of_cover 5 (result m c) (fun t _ => flushed_eq m c t) cover

/-- The kernel's run: the result array ends at the attention function of the arguments, which end unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Glue

end
-- ==== Proof.RefRead.lean ====
/-
  The reference program's result read at an index: row n, feature o of its last matrix product is the row-wise
  attention function of the argument arrays.
-/
import proofs.«167162_j25314537242916_2_alg».proof.Proof.Gen.ReferenceIdeal.Read
import proofs.«167162_j25314537242916_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The projection of row n onto feature j of a weight: the product with the transposed weight, read at (n, j). -/
theorem projQ (x0 : (⟨S65536x1024, .f32⟩ : BufTy).Contents (Elt Ideal)) (x1 : (⟨S1024x1024, .f32⟩ : BufTy).Contents (Elt Ideal)) (n : Fin 65536) (j : Fin 1024) :
    val_main_v1 (F := Ideal) x0 x1 (ix2 n j) = ∑ c : Fin 1024, x0 (ix2 n c) * x1 (ix2 j c) := by
  rw [val_main_v1_apply]
  refine Finset.sum_congr rfl fun c _ => ?_
  rw [val_main_v0_apply]
  have el : lidx_main_v1 (ix2 n j) c = ix2 n c := funext fun a => by
    match a with
    | ⟨0, _⟩ => rfl
    | ⟨1, _⟩ => rfl
  have er : idx_main_v0 (ridx_main_v1 (ix2 n j) c) = ix2 j c := funext fun a => by
    match a with
    | ⟨0, _⟩ => rfl
    | ⟨1, _⟩ => rfl
  rw [el, er]

/-- The projection of row n onto feature j of a weight: the product with the transposed weight, read at (n, j). -/
theorem projK (x0 : (⟨S65536x1024, .f32⟩ : BufTy).Contents (Elt Ideal)) (x2 : (⟨S1024x1024, .f32⟩ : BufTy).Contents (Elt Ideal)) (n : Fin 65536) (j : Fin 1024) :
    val_main_v4 (F := Ideal) x0 x2 (ix2 n j) = ∑ c : Fin 1024, x0 (ix2 n c) * x2 (ix2 j c) := by
  rw [val_main_v4_apply]
  refine Finset.sum_congr rfl fun c _ => ?_
  rw [val_main_v3_apply]
  have el : lidx_main_v4 (ix2 n j) c = ix2 n c := funext fun a => by
    match a with
    | ⟨0, _⟩ => rfl
    | ⟨1, _⟩ => rfl
  have er : idx_main_v3 (ridx_main_v4 (ix2 n j) c) = ix2 j c := funext fun a => by
    match a with
    | ⟨0, _⟩ => rfl
    | ⟨1, _⟩ => rfl
  rw [el, er]

/-- The projection of row n onto feature j of a weight: the product with the transposed weight, read at (n, j). -/
theorem projV (x0 : (⟨S65536x1024, .f32⟩ : BufTy).Contents (Elt Ideal)) (x3 : (⟨S1024x1024, .f32⟩ : BufTy).Contents (Elt Ideal)) (n : Fin 65536) (j : Fin 1024) :
    val_main_v7 (F := Ideal) x0 x3 (ix2 n j) = ∑ c : Fin 1024, x0 (ix2 n c) * x3 (ix2 j c) := by
  rw [val_main_v7_apply]
  refine Finset.sum_congr rfl fun c _ => ?_
  rw [val_main_v6_apply]
  have el : lidx_main_v7 (ix2 n j) c = ix2 n c := funext fun a => by
    match a with
    | ⟨0, _⟩ => rfl
    | ⟨1, _⟩ => rfl
  have er : idx_main_v6 (ridx_main_v7 (ix2 n j) c) = ix2 j c := funext fun a => by
    match a with
    | ⟨0, _⟩ => rfl
    | ⟨1, _⟩ => rfl
  rw [el, er]

/-- The queries, head-major: head h, dimension d of row n is the projection onto feature h·64 + d. -/
theorem qR (x0 : (⟨S65536x1024, .f32⟩ : BufTy).Contents (Elt Ideal)) (x1 : (⟨S1024x1024, .f32⟩ : BufTy).Contents (Elt Ideal)) (n : Fin 65536) (h : Fin 16) (d : Fin 64) :
    val_main_v2 (F := Ideal) x0 x1 (ix3 n h d) = ∑ c : Fin 1024, x0 (ix2 n c) * x1 (ix2 (hd h d) c) := by
  rw [val_main_v2_apply]
  have e : idx_main_v2 (ix3 n h d) = ix2 n (hd h d) := funext fun a => Fin.ext (by
    have hn : n.val < 65536 := n.isLt
    have hh : h.val < 16 := h.isLt
    have hd' : d.val < 64 := d.isLt
    match a with
    | ⟨0, _⟩ => show ((n.val * 16 + h.val) * 64 + d.val) / 1024 = n.val; omega
    | ⟨1, _⟩ => show ((n.val * 16 + h.val) * 64 + d.val) % 1024 = h.val * 64 + d.val; omega)
  rw [e, projQ]

/-- The keys, dimension-major: dimension d, head g of row n is the projection onto feature d·16 + g. -/
theorem kR (x0 : (⟨S65536x1024, .f32⟩ : BufTy).Contents (Elt Ideal)) (x2 : (⟨S1024x1024, .f32⟩ : BufTy).Contents (Elt Ideal)) (n : Fin 65536) (d : Fin 64) (g : Fin 16) :
    val_main_v5 (F := Ideal) x0 x2 (ix3 n d g) = ∑ c : Fin 1024, x0 (ix2 n c) * x2 (ix2 (dh d g) c) := by
  rw [val_main_v5_apply]
  have e : idx_main_v5 (ix3 n d g) = ix2 n (dh d g) := funext fun a => Fin.ext (by
    have hn : n.val < 65536 := n.isLt
    have hg : g.val < 16 := g.isLt
    have hd' : d.val < 64 := d.isLt
    match a with
    | ⟨0, _⟩ => show ((n.val * 64 + d.val) * 16 + g.val) / 1024 = n.val; omega
    | ⟨1, _⟩ => show ((n.val * 64 + d.val) * 16 + g.val) % 1024 = d.val * 16 + g.val; omega)
  rw [e, projK]

/-- The values, dimension-major, likewise. -/
theorem vR (x0 : (⟨S65536x1024, .f32⟩ : BufTy).Contents (Elt Ideal)) (x3 : (⟨S1024x1024, .f32⟩ : BufTy).Contents (Elt Ideal)) (n : Fin 65536) (d : Fin 64) (g : Fin 16) :
    val_main_v8 (F := Ideal) x0 x3 (ix3 n d g) = ∑ c : Fin 1024, x0 (ix2 n c) * x3 (ix2 (dh d g) c) := by
  rw [val_main_v8_apply]
  have e : idx_main_v8 (ix3 n d g) = ix2 n (dh d g) := funext fun a => Fin.ext (by
    have hn : n.val < 65536 := n.isLt
    have hg : g.val < 16 := g.isLt
    have hd' : d.val < 64 := d.isLt
    match a with
    | ⟨0, _⟩ => show ((n.val * 64 + d.val) * 16 + g.val) / 1024 = n.val; omega
    | ⟨1, _⟩ => show ((n.val * 64 + d.val) * 16 + g.val) % 1024 = d.val * 16 + g.val; omega)
  rw [e, projV]

/-- The scaled logits: head l against head g of row n, the product over the 64 dimensions times 2⁻⁷. -/
theorem logitR (x0 : (⟨S65536x1024, .f32⟩ : BufTy).Contents (Elt Ideal)) (x1 x2 : (⟨S1024x1024, .f32⟩ : BufTy).Contents (Elt Ideal)) (n : Fin 65536) (l g : Fin 16) :
    val_main_v13 (F := Ideal) x0 x1 x2 (ix3 n l g)
      = (∑ e : Fin 64, val_main_v2 (F := Ideal) x0 x1 (ix3 n l e) * val_main_v5 (F := Ideal) x0 x2 (ix3 n e g)) * scale := by
  rw [val_main_v13_apply, val_main_v11_apply, val_main_v12_apply, val_main_cst_0_apply, val_main_v10_apply,
    val_main_cst_apply, val_main_v9_apply]
  simp only [Ideal.mulf_def, Ideal.hostDivf_def, Ideal.ofBits_def]
  rw [scale_ref]
  refine congrArg (· * scale) (Finset.sum_congr rfl fun e _ => ?_)
  have el : lidx_main_v9 (ix3 n l g) e = ix3 n l e := funext fun a => by
    match a with
    | ⟨0, _⟩ => rfl
    | ⟨1, _⟩ => rfl
    | ⟨2, _⟩ => rfl
  have er : ridx_main_v9 (ix3 n l g) e = ix3 n e g := funext fun a => by
    match a with
    | ⟨0, _⟩ => rfl
    | ⟨1, _⟩ => rfl
    | ⟨2, _⟩ => rfl
  rw [el, er]

/-- The index over (n, l) with g inserted on the last axis is (n, l, g). -/
theorem lift_ix (h : S65536x16x16.Reduces [2] S65536x16) (n : Fin 65536) (l g : Fin 16) :
    h.lift (ix2 n l) g = ix3 n l g := funext fun a => Fin.ext (by
  match a with
  | ⟨0, _⟩ => rfl
  | ⟨1, _⟩ => rfl
  | ⟨2, _⟩ => rfl)

/-- The row maximum: the fold of max from minus infinity over the last axis, then one more max with minus infinity. -/
theorem topR (x0 : (⟨S65536x1024, .f32⟩ : BufTy).Contents (Elt Ideal)) (x1 x2 : (⟨S1024x1024, .f32⟩ : BufTy).Contents (Elt Ideal)) (n : Fin 65536) (l : Fin 16) :
    val_main_v16 (F := Ideal) x0 x1 x2 (ix2 n l) = top (fun g' => val_main_v13 (F := Ideal) x0 x1 x2 (ix3 n l g')) := by
  rw [val_main_v16_apply, val_main_v15_apply, val_main_cst_2_apply]
  have h14 : val_main_v14 (F := Ideal) x0 x1 x2 (ix2 n l) = top (fun g' => val_main_v13 (F := Ideal) x0 x1 x2 (ix3 n l g')) := by
    unfold val_main_v14
    generalize val_main_v13 (F := Ideal) x0 x1 x2 = y
    have h : S65536x16x16.Reduces [2] S65536x16 := by decide
    refine (Host.reduce_eq_fold_single (α := Ideal .f32) (s := S65536x16x16) (t := S65536x16) (a := 2) (u := S_) (FloatOps.maximumf (F := Ideal) (φ := .f32)) y (val_main_cst_1 (F := Ideal)) reducesTo_S65536x16x16_S65536x16_d2 h h_S_ (ix2 n l)).trans ?_
    show (Finset.univ : Finset (Fin 16)).fold max negInf (fun g' => y (h.lift (ix2 n l) g')) = _
    unfold top
    refine Finset.fold_congr fun g' _ => ?_
    exact congrArg y (lift_ix h n l g')
  rw [h14]
  exact top_absorb _

/-- The exponentials: exp of the logit less the row maximum. -/
theorem expR (x0 : (⟨S65536x1024, .f32⟩ : BufTy).Contents (Elt Ideal)) (x1 x2 : (⟨S1024x1024, .f32⟩ : BufTy).Contents (Elt Ideal)) (n : Fin 65536) (l g : Fin 16) :
    val_main_v20 (F := Ideal) x0 x1 x2 (ix3 n l g)
      = Ideal.exp (val_main_v13 (F := Ideal) x0 x1 x2 (ix3 n l g) - top (fun g' => val_main_v13 (F := Ideal) x0 x1 x2 (ix3 n l g'))) := by
  rw [val_main_v20_apply, val_main_v19_apply, val_main_v18_apply, val_main_v17_apply]
  have e : idx_main_v17 (idx_main_v18 (ix3 n l g)) = ix2 n l := funext fun a => by
    match a with
    | ⟨0, _⟩ => rfl
    | ⟨1, _⟩ => rfl
  rw [e, topR]
  rfl

/-- The normalizer: the sum of the exponentials over the last axis, added onto zero. -/
theorem sumR (x0 : (⟨S65536x1024, .f32⟩ : BufTy).Contents (Elt Ideal)) (x1 x2 : (⟨S1024x1024, .f32⟩ : BufTy).Contents (Elt Ideal)) (n : Fin 65536) (l : Fin 16) :
    val_main_v21 (F := Ideal) x0 x1 x2 (ix2 n l)
      = ∑ g : Fin 16, Ideal.exp (val_main_v13 (F := Ideal) x0 x1 x2 (ix3 n l g) - top (fun g' => val_main_v13 (F := Ideal) x0 x1 x2 (ix3 n l g'))) := by
  rw [val_main_v21_apply, val_main_cst_3_apply]
  simp only [Ideal.ofBits_def]
  rw [Ideal.ofBits_zero_f32, zero_add]
  refine Finset.sum_congr rfl fun g _ => ?_
  have e : idx_main_v21 (ix2 n l) g = ix3 n l g := funext fun a => by
    match a with
    | ⟨0, _⟩ => rfl
    | ⟨1, _⟩ => rfl
    | ⟨2, _⟩ => rfl
  rw [e, expR]

/-- The attention weights: the softmax of the row's logits. -/
theorem softR (x0 : (⟨S65536x1024, .f32⟩ : BufTy).Contents (Elt Ideal)) (x1 x2 : (⟨S1024x1024, .f32⟩ : BufTy).Contents (Elt Ideal)) (n : Fin 65536) (l g : Fin 16) :
    val_main_v24 (F := Ideal) x0 x1 x2 (ix3 n l g) = soft (fun g' => val_main_v13 (F := Ideal) x0 x1 x2 (ix3 n l g')) g := by
  rw [val_main_v24_apply, val_main_v23_apply, val_main_v22_apply]
  have e : idx_main_v22 (idx_main_v23 (ix3 n l g)) = ix2 n l := funext fun a => by
    match a with
    | ⟨0, _⟩ => rfl
    | ⟨1, _⟩ => rfl
  rw [e, expR, sumR]
  rfl

/-- The attended values: the weights against the values, summed over the heads g. -/
theorem attnR (x0 : (⟨S65536x1024, .f32⟩ : BufTy).Contents (Elt Ideal)) (x1 x2 x3 : (⟨S1024x1024, .f32⟩ : BufTy).Contents (Elt Ideal)) (n : Fin 65536) (l : Fin 16) (d : Fin 64) :
    val_main_v25 (F := Ideal) x0 x1 x2 x3 (ix3 n l d)
      = ∑ g : Fin 16, val_main_v24 (F := Ideal) x0 x1 x2 (ix3 n l g) * val_main_v8 (F := Ideal) x0 x3 (ix3 n d g) := by
  rw [val_main_v25_apply]
  refine Finset.sum_congr rfl fun g _ => ?_
  have el : lidx_main_v25 (ix3 n l d) g = ix3 n l g := funext fun a => by
    match a with
    | ⟨0, _⟩ => rfl
    | ⟨1, _⟩ => rfl
    | ⟨2, _⟩ => rfl
  have er : ridx_main_v25 (ix3 n l d) g = ix3 n d g := funext fun a => by
    match a with
    | ⟨0, _⟩ => rfl
    | ⟨1, _⟩ => rfl
    | ⟨2, _⟩ => rfl
  rw [el, er]

/-- The reference's result at (n, o) is the attention function of the arguments. -/
theorem ref_apply (x0 : (⟨S65536x1024, .f32⟩ : BufTy).Contents (Elt Ideal)) (x1 x2 x3 x4 : (⟨S1024x1024, .f32⟩ : BufTy).Contents (Elt Ideal))
    (n : Fin 65536) (o : Fin 1024) :
    val_main_v29 (F := Ideal) x0 x1 x2 x3 x4 (ix2 n o) = G x0 x1 x2 x3 x4 n o := by
  rw [val_main_v29_apply, sum_dh]
  unfold G out
  refine Finset.sum_congr rfl fun l _ => Finset.sum_congr rfl fun d _ => ?_
  rw [val_main_v28_apply, val_main_v27_apply, val_main_v26_apply]
  have e1 : idx_main_v26 (idx_main_v27 (lidx_main_v29 (ix2 n o) (dh d l))) = ix3 n l d := funext fun a => Fin.ext (by
    have hn : n.val < 65536 := n.isLt
    have hl : l.val < 16 := l.isLt
    have hd' : d.val < 64 := d.isLt
    match a with
    | ⟨0, _⟩ => show (n.val * 1024 + (d.val * 16 + l.val)) / 1024 = n.val; omega
    | ⟨1, _⟩ => show (n.val * 1024 + (d.val * 16 + l.val)) % 16 = l.val; omega
    | ⟨2, _⟩ => show (n.val * 1024 + (d.val * 16 + l.val)) / 16 % 64 = d.val; omega)
  have e2 : idx_main_v28 (ridx_main_v29 (ix2 n o) (dh d l)) = ix2 o (dh d l) := funext fun a => by
    match a with
    | ⟨0, _⟩ => rfl
    | ⟨1, _⟩ => rfl
  rw [e1, e2, attnR]
  unfold attn
  refine congrArg (· * x4 (ix2 o (dh d l))) (Finset.sum_congr rfl fun g _ => ?_)
  rw [softR, vR]
  refine congrArg (fun s => soft s g * _) (funext fun g' => ?_)
  rw [logitR]
  refine congrArg (· * scale) (Finset.sum_congr rfl fun e _ => ?_)
  rw [qR, kR]

end Cert.ReferenceIdeal.RefValue

end
-- ==== Proof.lean ====
/-
  The kernel computes, for each of the 65536 rows x of the input, multi-head attention ACROSS THE 16 HEADS of that
  row: with q = x·Wqᵀ read as 16 heads of 64 dimensions head-major, k = x·Wkᵀ and v = x·Wvᵀ read dimension-major,
  the logits q_l·k_g scaled by 2⁻⁷ (the reference divides by 64 and halves), a softmax over g, the scores applied
  to v, and the result, flattened dimension-major, against Wfcᵀ.  The kernel permutes the rows of Wk and Wv and the
  columns of Wfc on the host so that every reading inside its body is head-major, accumulates the sixteen
  score-value products one after the other onto zero, and tiles the rows by 256; the reference is five matrix
  products and a softmax on whole arrays.  Over the extended reals the two are the same sums: re-indexing a sum over
  the 1024 features through the two readings, the associativity and commutativity of the sixteen-term sum, and
  x / 64 · ½ = x · 2⁻⁷ at every extended real.  The precondition is never opened.

  The three frames are the generated ones (the reference's is its generated run with the result dropped); the
  idealization rewrote nothing, so it is preserved trivially; the algebraic claim sets the kernel's run, with its
  result array read as the attention function of the arguments, beside the reference's run read the same way.
-/
import proofs.«167162_j25314537242916_2_alg».proof.Defs
import proofs.«167162_j25314537242916_2_alg».proof.Proof.Gen.Kernel
import proofs.«167162_j25314537242916_2_alg».proof.Proof.Gen.Kernel.Frame
import proofs.«167162_j25314537242916_2_alg».proof.Proof.Gen.KernelIdeal
import proofs.«167162_j25314537242916_2_alg».proof.Proof.Gen.KernelIdeal.Frame
import proofs.«167162_j25314537242916_2_alg».proof.Proof.Gen.KernelIdeal.Value
import proofs.«167162_j25314537242916_2_alg».proof.Proof.Gen.ReferenceIdeal
import proofs.«167162_j25314537242916_2_alg».proof.Proof.Gen.ReferenceIdeal.Run
import proofs.«167162_j25314537242916_2_alg».proof.Proof.Gen.ReferenceIdeal.Read
import proofs.«167162_j25314537242916_2_alg».proof.Proof.Gen.Pre_finite_inputs
import proofs.«167162_j25314537242916_2_alg».proof.Proof.Glue
import proofs.«167162_j25314537242916_2_alg».proof.Proof.RefRead
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the attention function of arguments that agree. -/
theorem algebraic : Cert.algebraic_KernelIdeal_ReferenceIdeal := by
  intro m ρ m' ρ' _ hagree
  refine ⟨fun c => Cert.KernelIdeal.Glue.result m c, Cert.KernelIdeal.Glue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2]
  funext i
  obtain ⟨n, o, rfl⟩ : ∃ (n : Fin 65536) (o : Fin 1024), i = ix2 n o := ⟨i 0, i 1, eq_ix2 i⟩
  exact (Cert.ReferenceIdeal.RefValue.ref_apply _ _ _ _ _ n o).trans
    (Cert.KernelIdeal.Glue.arrOf_at _ _ _ _ _ (ix2 n o) n o rfl rfl).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
